-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16384x512 .f32) (main_arg1 : IVec S2x524288 32) (main_arg2 : FVec F S512x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x256 : Shape := ⟨2, ![16384, 256]⟩
abbrev S540672x256 : Shape := ⟨2, ![540672, 256]⟩
abbrev S1x256 : Shape := ⟨2, ![1, 256]⟩
abbrev S256x256 : Shape := ⟨2, ![256, 256]⟩
abbrev S16384x128 : Shape := ⟨2, ![16384, 128]⟩
abbrev S16384x16384 : Shape := ⟨2, ![16384, 16384]⟩
abbrev S2048x512 : Shape := ⟨2, ![2048, 512]⟩
abbrev S2048x256 : Shape := ⟨2, ![2048, 256]⟩
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 100
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S2x524288, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S16384, .i32⟩
  | .hbm, ⟨9, _⟩ => ⟨S1x524288, .i32⟩
  | .hbm, ⟨10, _⟩ => ⟨S524288, .i32⟩
  | .hbm, ⟨11, _⟩ => ⟨S540672, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S_, .f32⟩
  | .hbm, ⟨16, _⟩ => ⟨S540672, .f32⟩
  | .hbm, ⟨17, _⟩ => ⟨S_, .f32⟩
  | .hbm, ⟨18, _⟩ => ⟨S16384, .f32⟩
  | .hbm, ⟨19, _⟩ => ⟨S540672x1, .i32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .i1⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .i32⟩
  | .hbm, ⟨33, _⟩ => ⟨S540672, .i32⟩
  | .hbm, ⟨34, _⟩ => ⟨S540672, .i1⟩
  | .hbm, ⟨35, _⟩ => ⟨S_, .i32⟩
  | .hbm, ⟨36, _⟩ => ⟨S540672, .i32⟩
  | .hbm, ⟨37, _⟩ => ⟨S540672, .i32⟩
  | .hbm, ⟨38, _⟩ => ⟨S540672, .i32⟩
  | .hbm, ⟨39, _⟩ => ⟨S540672x1, .i32⟩
  | .hbm, ⟨40, _⟩ => ⟨S540672, .f32⟩
  | .hbm, ⟨41, _⟩ => ⟨S_, .i32⟩
  | .hbm, ⟨42, _⟩ => ⟨S540672, .i32⟩
  | .hbm, ⟨43, _⟩ => ⟨S540672, .i1⟩
  | .hbm, ⟨44, _⟩ => ⟨S_, .i32⟩
  | .hbm, ⟨45, _⟩ => ⟨S540672, .i32⟩
  | .hbm, ⟨46, _⟩ => ⟨S540672, .i32⟩
  | .hbm, ⟨47, _⟩ => ⟨S540672, .i32⟩
  | .hbm, ⟨48, _⟩ => ⟨S540672x1, .i32⟩
  | .hbm, ⟨49, _⟩ => ⟨S540672, .f32⟩
  | .hbm, ⟨50, _⟩ => ⟨S540672, .f32⟩
  | .hbm, ⟨51, _⟩ => ⟨S16384x256, .f32⟩
  | .hbm, ⟨52, _⟩ => ⟨S_, .i32⟩
  | .hbm, ⟨53, _⟩ => ⟨S540672, .i32⟩
  | .hbm, ⟨54, _⟩ => ⟨S540672, .i1⟩
  | .hbm, ⟨55, _⟩ => ⟨S_, .i32⟩
  | .hbm, ⟨56, _⟩ => ⟨S540672, .i32⟩
  | .hbm, ⟨57, _⟩ => ⟨S540672, .i32⟩
  | .hbm, ⟨58, _⟩ => ⟨S540672, .i32⟩
  | .hbm, ⟨59, _⟩ => ⟨S540672x1, .i32⟩
  | .hbm, ⟨60, _⟩ => ⟨S540672x256, .f32⟩
  | .hbm, ⟨61, _⟩ => ⟨S540672x1, .f32⟩
  | .hbm, ⟨62, _⟩ => ⟨S540672x256, .f32⟩
  | .hbm, ⟨63, _⟩ => ⟨S540672x256, .f32⟩
  | .hbm, ⟨64, _⟩ => ⟨S_, .f32⟩
  | .hbm, ⟨65, _⟩ => ⟨S16384x256, .f32⟩
  | .hbm, ⟨66, _⟩ => ⟨S540672x1, .i32⟩
  | .hbm, ⟨67, _⟩ => ⟨S16384x256, .f32⟩
  | .hbm, ⟨68, _⟩ => ⟨S1x256, .f32⟩
  | .hbm, ⟨69, _⟩ => ⟨S16384x256, .f32⟩
  | .hbm, ⟨70, _⟩ => ⟨S16384x256, .f32⟩
  | .hbm, ⟨71, _⟩ => ⟨S_, .f32⟩
  | .hbm, ⟨72, _⟩ => ⟨S16384x256, .f32⟩
  | .hbm, ⟨73, _⟩ => ⟨S16384x256, .f32⟩
  | .hbm, ⟨74, _⟩ => ⟨S256x256, .f32⟩
  | .hbm, ⟨75, _⟩ => ⟨S256, .f32⟩
  | .hbm, ⟨76, _⟩ => ⟨S16384x256, .f32⟩
  | .hbm, ⟨77, _⟩ => ⟨S_, .i32⟩
  | .hbm, ⟨78, _⟩ => ⟨S540672, .i32⟩
  | .hbm, ⟨79, _⟩ => ⟨S540672, .i1⟩
  | .hbm, ⟨80, _⟩ => ⟨S_, .i32⟩
  | .hbm, ⟨81, _⟩ => ⟨S540672, .i32⟩
  | .hbm, ⟨82, _⟩ => ⟨S540672, .i32⟩
  | .hbm, ⟨83, _⟩ => ⟨S540672, .i32⟩
  | .hbm, ⟨84, _⟩ => ⟨S540672x1, .i32⟩
  | .hbm, ⟨85, _⟩ => ⟨S540672x256, .f32⟩
  | .hbm, ⟨86, _⟩ => ⟨S540672x1, .f32⟩
  | .hbm, ⟨87, _⟩ => ⟨S540672x256, .f32⟩
  | .hbm, ⟨88, _⟩ => ⟨S540672x256, .f32⟩
  | .hbm, ⟨89, _⟩ => ⟨S_, .f32⟩
  | .hbm, ⟨90, _⟩ => ⟨S16384x256, .f32⟩
  | .hbm, ⟨91, _⟩ => ⟨S540672x1, .i32⟩
  | .hbm, ⟨92, _⟩ => ⟨S16384x256, .f32⟩
  | .hbm, ⟨93, _⟩ => ⟨S1x256, .f32⟩
  | .hbm, ⟨94, _⟩ => ⟨S16384x256, .f32⟩
  | .hbm, ⟨95, _⟩ => ⟨S16384x256, .f32⟩
  | .hbm, ⟨96, _⟩ => ⟨S16384x128, .f32⟩
  | .hbm, ⟨97, _⟩ => ⟨S16384x128, .f32⟩
  | .hbm, ⟨98, _⟩ => ⟨S16384x128, .bf16⟩
  | .hbm, ⟨99, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S16384x128, .bf16⟩
  | .local _ .vmem, ⟨11, _⟩ => ⟨S2048x1024, .f32⟩
  | .local _ .vmem, ⟨12, _⟩ => ⟨S2048x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst : Ref sig .tc := ⟨.hbm, 15, rfl⟩
abbrev main_call0_v7 : Ref sig .tc := ⟨.hbm, 16, rfl⟩
abbrev main_call0_cst_0 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst_1 : Ref sig .tc := ⟨.hbm, 21, rfl⟩
abbrev main_call0_v11 : Ref sig .tc := ⟨.hbm, 22, rfl⟩
abbrev main_call0_v12 : Ref sig .tc := ⟨.hbm, 23, rfl⟩
abbrev main_call0_cst_2 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_cst_3 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v16 : Ref sig .tc := ⟨.hbm, 31, rfl⟩
abbrev main_call0_c : Ref sig .tc := ⟨.hbm, 32, rfl⟩
abbrev main_call0_v17 : Ref sig .tc := ⟨.hbm, 33, rfl⟩
abbrev main_call0_v18 : Ref sig .tc := ⟨.hbm, 34, rfl⟩
abbrev main_call0_c_4 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_c_5 : Ref sig .tc := ⟨.hbm, 41, rfl⟩
abbrev main_call0_v24 : Ref sig .tc := ⟨.hbm, 42, rfl⟩
abbrev main_call0_v25 : Ref sig .tc := ⟨.hbm, 43, rfl⟩
abbrev main_call0_c_6 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_c_7 : Ref sig .tc := ⟨.hbm, 52, rfl⟩
abbrev main_call0_v33 : Ref sig .tc := ⟨.hbm, 53, rfl⟩
abbrev main_call0_v34 : Ref sig .tc := ⟨.hbm, 54, rfl⟩
abbrev main_call0_c_8 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42 : Ref sig .tc := ⟨.hbm, 63, rfl⟩
abbrev main_call0_cst_9 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_call1_cst : Ref sig .tc := ⟨.hbm, 71, rfl⟩
abbrev main_call0_call1_v0 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_c_10 : Ref sig .tc := ⟨.hbm, 77, rfl⟩
abbrev main_call0_v53 : Ref sig .tc := ⟨.hbm, 78, rfl⟩
abbrev main_call0_v54 : Ref sig .tc := ⟨.hbm, 79, rfl⟩
abbrev main_call0_c_11 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_cst_12 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_v0_1 : Ref sig .tc := ⟨.hbm, 96, rfl⟩
abbrev main_v0_2 : Ref sig .tc := ⟨.hbm, 97, rfl⟩
abbrev main_call0_v71 : Ref sig .tc := ⟨.hbm, 98, rfl⟩
abbrev main_v0_0 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

def k2_mult1 (i : grid2.Coords) : BitVec 32 :=
  let arg0 : BitVec 32 := BitVec.ofNat 32 (i 0).val
  let c2048_i32 : BitVec 32 := 2048#32
  let v0 : BitVec 32 := Scalar.muli arg0 c2048_i32
  v0
def k2_off1 (i : grid2.Coords) : Fin 2 → Nat :=
  let arg0 : BitVec 32 := BitVec.ofNat 32 (i 0).val
  let c2048_i32 : BitVec 32 := 2048#32
  let v0 : BitVec 32 := Scalar.muli arg0 c2048_i32
  let v1 : BitVec 32 := v0
  let v2 : Index := Scalar.indexCast v1
  let c0 : Index := 0#32
  ![v2.toNat, 0]
def k2_mult2 (i : grid2.Coords) : BitVec 32 :=
  let arg1 : BitVec 32 := BitVec.ofNat 32 (i 1).val
  let c1024_i32 : BitVec 32 := 1024#32
  let v5 : BitVec 32 := Scalar.muli arg1 c1024_i32
  v5
def k2_off2 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_0 : Index := 0#32
  ![v7.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S16384x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S256x128_S256x128_S256x256_d1 : Shape.Concatenates [S256x128, S256x128] S256x256 1
  concatenates_S128_S128_S256_d0 : Shape.Concatenates [S128, S128] S256 0
  slices_S16384x256_S16384x128_0_0 : S16384x256.Slices ![0, 0] S16384x128
  slices_S16384x256_S16384x128_0_128 : S16384x256.Slices ![0, 128] S16384x128
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S2048x128 : 0 < S2048x128.numel
  shapeCasts_S2048x128_S2048x128 : S2048x128.ShapeCasts S2048x128
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S2048x512_S512x256_S2048x256_1_0_0_1_n_n_wf : DotDims.WF S2048x512 S512x256 S2048x256 [1] [0] [0] [1] [] []
  dot_S2048x256_S256x256_S2048x256_1_0_0_1_n_n_wf : DotDims.WF S2048x256 S256x256 S2048x256 [1] [0] [0] [1] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S16384x128.size a
  k2_mult2_dvd : ∀ i : grid2.Coords, 1024 ∣ (k2_mult2 i).toNat
  k2_off2_inb : ∀ i : grid2.Coords, ∀ a, (k2_off2 i) a + S1024x128.size a ≤ S16384x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16384x128.size a ≤ S16384x128.size a
  hwx2_0 : ∀ i : grid2.Coords, EltTy.bits .bf16 = 32 ∨ (Rect.block (s := S16384x128) S16384x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S16384x16384.size a
  hwx2_1 : ∀ i : grid2.Coords, EltTy.bits .f32 = 32 ∨ (Rect.block (s := S16384x16384) S2048x1024.size (cc2_transform_1 i) (hinb2_1 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v32) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v49) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v50) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v52) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v71) S16384x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S2048x1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x256 : Shape := ⟨2, ![16384, 256]⟩
abbrev S540672x256 : Shape := ⟨2, ![540672, 256]⟩
abbrev S1x256 : Shape := ⟨2, ![1, 256]⟩
abbrev S16384x128 : Shape := ⟨2, ![16384, 128]⟩
abbrev S540672x128 : Shape := ⟨2, ![540672, 128]⟩
abbrev S1x128 : Shape := ⟨2, ![1, 128]⟩
abbrev S128x16384 : Shape := ⟨2, ![128, 16384]⟩
abbrev S16384x16384 : Shape := ⟨2, ![16384, 16384]⟩

abbrev nBuf : Space → Nat
  | .hbm => 202
  | .vmem => 0
  | .smem => 0
  | _ => 0

abbrev hbmTy0_0 (i : Nat) : BufTy := match i % 128 with
  | 0 => ⟨S16384x512, .f32⟩
  | 1 => ⟨S2x524288, .i32⟩
  | 2 => ⟨S512x256, .f32⟩
  | 3 => ⟨S256, .f32⟩
  | 4 => ⟨S256x128, .f32⟩
  | 5 => ⟨S128, .f32⟩
  | 6 => ⟨S256x128, .f32⟩
  | 7 => ⟨S128, .f32⟩
  | 8 => ⟨S16384, .i32⟩
  | 9 => ⟨S1x524288, .i32⟩
  | 10 => ⟨S524288, .i32⟩
  | 11 => ⟨S540672, .i32⟩
  | 12 => ⟨S1x524288, .i32⟩
  | 13 => ⟨S524288, .i32⟩
  | 14 => ⟨S540672, .i32⟩
  | 15 => ⟨S_, .f32⟩
  | 16 => ⟨S540672, .f32⟩
  | 17 => ⟨S_, .f32⟩
  | 18 => ⟨S16384, .f32⟩
  | 19 => ⟨S540672x1, .i32⟩
  | 20 => ⟨S16384, .f32⟩
  | 21 => ⟨S_, .f32⟩
  | 22 => ⟨S16384, .f32⟩
  | 23 => ⟨S16384, .i1⟩
  | 24 => ⟨S_, .f32⟩
  | 25 => ⟨S16384, .f32⟩
  | 26 => ⟨S16384, .f32⟩
  | 27 => ⟨S16384, .f32⟩
  | 28 => ⟨S_, .f32⟩
  | 29 => ⟨S_, .f32⟩
  | 30 => ⟨S16384, .f32⟩
  | 31 => ⟨S16384, .f32⟩
  | 32 => ⟨S_, .i32⟩
  | 33 => ⟨S540672, .i32⟩
  | 34 => ⟨S540672, .i1⟩
  | 35 => ⟨S_, .i32⟩
  | 36 => ⟨S540672, .i32⟩
  | 37 => ⟨S540672, .i32⟩
  | 38 => ⟨S540672, .i32⟩
  | 39 => ⟨S540672x1, .i32⟩
  | 40 => ⟨S540672, .f32⟩
  | 41 => ⟨S_, .i32⟩
  | 42 => ⟨S540672, .i32⟩
  | 43 => ⟨S540672, .i1⟩
  | 44 => ⟨S_, .i32⟩
  | 45 => ⟨S540672, .i32⟩
  | 46 => ⟨S540672, .i32⟩
  | 47 => ⟨S540672, .i32⟩
  | 48 => ⟨S540672x1, .i32⟩
  | 49 => ⟨S540672, .f32⟩
  | 50 => ⟨S540672, .f32⟩
  | 51 => ⟨S16384x256, .f32⟩
  | 52 => ⟨S_, .i32⟩
  | 53 => ⟨S540672, .i32⟩
  | 54 => ⟨S540672, .i1⟩
  | 55 => ⟨S_, .i32⟩
  | 56 => ⟨S540672, .i32⟩
  | 57 => ⟨S540672, .i32⟩
  | 58 => ⟨S540672, .i32⟩
  | 59 => ⟨S540672x1, .i32⟩
  | 60 => ⟨S540672x256, .f32⟩
  | 61 => ⟨S540672x1, .f32⟩
  | 62 => ⟨S540672x256, .f32⟩
  | 63 => ⟨S540672x256, .f32⟩
  | 64 => ⟨S_, .f32⟩
  | 65 => ⟨S16384x256, .f32⟩
  | 66 => ⟨S540672x1, .i32⟩
  | 67 => ⟨S16384x256, .f32⟩
  | 68 => ⟨S1x256, .f32⟩
  | 69 => ⟨S16384x256, .f32⟩
  | 70 => ⟨S16384x256, .f32⟩
  | 71 => ⟨S_, .f32⟩
  | 72 => ⟨S16384x256, .f32⟩
  | 73 => ⟨S16384x256, .f32⟩
  | 74 => ⟨S16384, .i32⟩
  | 75 => ⟨S1x524288, .i32⟩
  | 76 => ⟨S524288, .i32⟩
  | 77 => ⟨S540672, .i32⟩
  | 78 => ⟨S1x524288, .i32⟩
  | 79 => ⟨S524288, .i32⟩
  | 80 => ⟨S540672, .i32⟩
  | 81 => ⟨S_, .f32⟩
  | 82 => ⟨S540672, .f32⟩
  | 83 => ⟨S_, .f32⟩
  | 84 => ⟨S16384, .f32⟩
  | 85 => ⟨S540672x1, .i32⟩
  | 86 => ⟨S16384, .f32⟩
  | 87 => ⟨S_, .f32⟩
  | 88 => ⟨S16384, .f32⟩
  | 89 => ⟨S16384, .i1⟩
  | 90 => ⟨S_, .f32⟩
  | 91 => ⟨S16384, .f32⟩
  | 92 => ⟨S16384, .f32⟩
  | 93 => ⟨S16384, .f32⟩
  | 94 => ⟨S_, .f32⟩
  | 95 => ⟨S_, .f32⟩
  | 96 => ⟨S16384, .f32⟩
  | 97 => ⟨S16384, .f32⟩
  | 98 => ⟨S_, .i32⟩
  | 99 => ⟨S540672, .i32⟩
  | 100 => ⟨S540672, .i1⟩
  | 101 => ⟨S_, .i32⟩
  | 102 => ⟨S540672, .i32⟩
  | 103 => ⟨S540672, .i32⟩
  | 104 => ⟨S540672, .i32⟩
  | 105 => ⟨S540672x1, .i32⟩
  | 106 => ⟨S540672, .f32⟩
  | 107 => ⟨S_, .i32⟩
  | 108 => ⟨S540672, .i32⟩
  | 109 => ⟨S540672, .i1⟩
  | 110 => ⟨S_, .i32⟩
  | 111 => ⟨S540672, .i32⟩
  | 112 => ⟨S540672, .i32⟩
  | 113 => ⟨S540672, .i32⟩
  | 114 => ⟨S540672x1, .i32⟩
  | 115 => ⟨S540672, .f32⟩
  | 116 => ⟨S540672, .f32⟩
  | 117 => ⟨S16384x128, .f32⟩
  | 118 => ⟨S_, .i32⟩
  | 119 => ⟨S540672, .i32⟩
  | 120 => ⟨S540672, .i1⟩
  | 121 => ⟨S_, .i32⟩
  | 122 => ⟨S540672, .i32⟩
  | 123 => ⟨S540672, .i32⟩
  | 124 => ⟨S540672, .i32⟩
  | 125 => ⟨S540672x1, .i32⟩
  | 126 => ⟨S540672x128, .f32⟩
  | 127 => ⟨S540672x1, .f32⟩
  | _ => ⟨S16384x512, .f32⟩

abbrev hbmTy0_1 (i : Nat) : BufTy := match i % 128 with
  | 0 => ⟨S540672x128, .f32⟩
  | 1 => ⟨S540672x128, .f32⟩
  | 2 => ⟨S_, .f32⟩
  | 3 => ⟨S16384x128, .f32⟩
  | 4 => ⟨S540672x1, .i32⟩
  | 5 => ⟨S16384x128, .f32⟩
  | 6 => ⟨S1x128, .f32⟩
  | 7 => ⟨S16384x128, .f32⟩
  | 8 => ⟨S16384x128, .f32⟩
  | 9 => ⟨S16384, .i32⟩
  | 10 => ⟨S1x524288, .i32⟩
  | 11 => ⟨S524288, .i32⟩
  | 12 => ⟨S540672, .i32⟩
  | 13 => ⟨S1x524288, .i32⟩
  | 14 => ⟨S524288, .i32⟩
  | 15 => ⟨S540672, .i32⟩
  | 16 => ⟨S_, .f32⟩
  | 17 => ⟨S540672, .f32⟩
  | 18 => ⟨S_, .f32⟩
  | 19 => ⟨S16384, .f32⟩
  | 20 => ⟨S540672x1, .i32⟩
  | 21 => ⟨S16384, .f32⟩
  | 22 => ⟨S_, .f32⟩
  | 23 => ⟨S16384, .f32⟩
  | 24 => ⟨S16384, .i1⟩
  | 25 => ⟨S_, .f32⟩
  | 26 => ⟨S16384, .f32⟩
  | 27 => ⟨S16384, .f32⟩
  | 28 => ⟨S16384, .f32⟩
  | 29 => ⟨S_, .f32⟩
  | 30 => ⟨S_, .f32⟩
  | 31 => ⟨S16384, .f32⟩
  | 32 => ⟨S16384, .f32⟩
  | 33 => ⟨S_, .i32⟩
  | 34 => ⟨S540672, .i32⟩
  | 35 => ⟨S540672, .i1⟩
  | 36 => ⟨S_, .i32⟩
  | 37 => ⟨S540672, .i32⟩
  | 38 => ⟨S540672, .i32⟩
  | 39 => ⟨S540672, .i32⟩
  | 40 => ⟨S540672x1, .i32⟩
  | 41 => ⟨S540672, .f32⟩
  | 42 => ⟨S_, .i32⟩
  | 43 => ⟨S540672, .i32⟩
  | 44 => ⟨S540672, .i1⟩
  | 45 => ⟨S_, .i32⟩
  | 46 => ⟨S540672, .i32⟩
  | 47 => ⟨S540672, .i32⟩
  | 48 => ⟨S540672, .i32⟩
  | 49 => ⟨S540672x1, .i32⟩
  | 50 => ⟨S540672, .f32⟩
  | 51 => ⟨S540672, .f32⟩
  | 52 => ⟨S16384x128, .f32⟩
  | 53 => ⟨S_, .i32⟩
  | 54 => ⟨S540672, .i32⟩
  | 55 => ⟨S540672, .i1⟩
  | 56 => ⟨S_, .i32⟩
  | 57 => ⟨S540672, .i32⟩
  | 58 => ⟨S540672, .i32⟩
  | 59 => ⟨S540672, .i32⟩
  | 60 => ⟨S540672x1, .i32⟩
  | 61 => ⟨S540672x128, .f32⟩
  | 62 => ⟨S540672x1, .f32⟩
  | 63 => ⟨S540672x128, .f32⟩
  | 64 => ⟨S540672x128, .f32⟩
  | 65 => ⟨S_, .f32⟩
  | 66 => ⟨S16384x128, .f32⟩
  | 67 => ⟨S540672x1, .i32⟩
  | 68 => ⟨S16384x128, .f32⟩
  | 69 => ⟨S1x128, .f32⟩
  | 70 => ⟨S16384x128, .f32⟩
  | 71 => ⟨S16384x128, .f32⟩
  | 72 => ⟨S128x16384, .f32⟩
  | 73 => ⟨S16384x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_22 : Ref sig .tc := ⟨.hbm, 144, rfl⟩
abbrev main_v106 : Ref sig .tc := ⟨.hbm, 145, rfl⟩
abbrev main_cst_23 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_24 : Ref sig .tc := ⟨.hbm, 150, rfl⟩
abbrev main_v110 : Ref sig .tc := ⟨.hbm, 151, rfl⟩
abbrev main_v111 : Ref sig .tc := ⟨.hbm, 152, rfl⟩
abbrev main_cst_25 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_26 : Ref sig .tc := ⟨.hbm, 157, rfl⟩
abbrev main_call3_v0 : Ref sig .tc := ⟨.hbm, 158, rfl⟩
abbrev main_call3_v1 : Ref sig .tc := ⟨.hbm, 159, rfl⟩
abbrev main_v115 : Ref sig .tc := ⟨.hbm, 160, rfl⟩
abbrev main_c_27 : Ref sig .tc := ⟨.hbm, 161, rfl⟩
abbrev main_v116 : Ref sig .tc := ⟨.hbm, 162, rfl⟩
abbrev main_v117 : Ref sig .tc := ⟨.hbm, 163, rfl⟩
abbrev main_c_28 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_c_29 : Ref sig .tc := ⟨.hbm, 170, rfl⟩
abbrev main_v123 : Ref sig .tc := ⟨.hbm, 171, rfl⟩
abbrev main_v124 : Ref sig .tc := ⟨.hbm, 172, rfl⟩
abbrev main_c_30 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_31 : Ref sig .tc := ⟨.hbm, 181, rfl⟩
abbrev main_v132 : Ref sig .tc := ⟨.hbm, 182, rfl⟩
abbrev main_v133 : Ref sig .tc := ⟨.hbm, 183, rfl⟩
abbrev main_c_32 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_33 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x512_S512x256_S16384x256_1_0_0_1_n_n_wf : DotDims.WF S16384x512 S512x256 S16384x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  dot_S16384x256_S256x128_S16384x128_1_0_0_1_n_n_wf : DotDims.WF S16384x256 S256x128 S16384x128 [1] [0] [0] [1] [] []
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S16384x128_S128x16384_S16384x16384_1_0_0_1_n_n_wf : DotDims.WF S16384x128 S128x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.Layers.lean ====
/-
  One graph-convolution aggregation as the host spells it, named once for each width it occurs at.

  Given the source and target node of every edge (self-loops appended) as 32-bit words, the edge weights, a node
  feature matrix H and a bias b, the layer's output at node p and feature q is

      (0 + Σ_{e : target e = p} H(source e, q) · weight e) + b q,

  which the host computes as: gather the rows of H at the (numpy-wrapped) source words, scale row e by the weight
  of edge e broadcast along the features, add-scatter the rows at the target words into a zero matrix, add the
  bias broadcast down the nodes. The kernel's program does this at width 256 (twice), the reference at width 256
  (once) and at width 128 (twice); the definitions below are those spellings, over the printed programs' own
  dimension records, so that a run's composed term folds into them by unfolding alone.
-/
import proofs.«171449_j66383014527469_2_alg».proof.Proof.Gen.KernelIdeal
import proofs.«171449_j66383014527469_2_alg».proof.Proof.Gen.ReferenceIdeal

noncomputable section

namespace Cert.KernelIdeal.Lay

open Cert.KernelIdeal Cert.KernelIdeal.Gen Idealize.ShloMosaic

variable {F : FTy → Type} [FloatOps F]

/-- The index words as a column, a negative word first moved up by the number of nodes (numpy's wrap-around). -/
def wrapCol (v : IVec S540672 32) : IVec S540672x1 32 :=
  broadcastInDim S540672x1 ![0] bcast_S540672_S540672x1_0
    (select (cmpi .slt v (broadcastInDim S540672 ![] bcast_S_S540672 (constantI S_ 32 0#32)))
      (addi v (broadcastInDim S540672 ![] bcast_S_S540672 (constantI S_ 32 16384#32))) v)

/-- The aggregation at width 256: rows of `H` gathered at the wrapped source words, scaled by the edge weights,
    summed at the target words, plus the bias. -/
def layer256 (rowI colI : IVec S540672 32) (nrm : FVec F S540672 .f32) (H : FVec F S16384x256 .f32)
    (b : FVec F S256 .f32) : FVec F S16384x256 .f32 :=
  addf
    (Host.scatterAdd scatter_S16384x256_S540672x1_S540672x256_1_0_0_1
      (broadcastInDim S16384x256 ![] bcast_S_S16384x256 (constant S_ .f32 0x00000000#32))
      (broadcastInDim S540672x1 ![0] bcast_S540672_S540672x1_0 colI)
      (mulf (Host.gather gather_S16384x256_S540672x1_S540672x256_1_0_n_n_0_1_1256 H (wrapCol rowI))
        (broadcastInDim S540672x256 ![0, 1] bcast_S540672x1_S540672x256_0_1
          (broadcastInDim S540672x1 ![0] bcast_S540672_S540672x1_0 nrm))))
    (broadcastInDim S16384x256 ![0, 1] bcast_S1x256_S16384x256_0_1 (broadcastInDim S1x256 ![1] bcast_S256_S1x256_1 b))

end Cert.KernelIdeal.Lay

namespace Cert.ReferenceIdeal.Lay

open Cert.ReferenceIdeal Cert.ReferenceIdeal.Gen Idealize.ShloMosaic

variable {F : FTy → Type} [FloatOps F]

/-- The index words as a column, a negative word first moved up by the number of nodes (numpy's wrap-around). -/
def wrapCol (v : IVec S540672 32) : IVec S540672x1 32 :=
  broadcastInDim S540672x1 ![0] bcast_S540672_S540672x1_0
    (select (cmpi .slt v (broadcastInDim S540672 ![] bcast_S_S540672 (constantI S_ 32 0#32)))
      (addi v (broadcastInDim S540672 ![] bcast_S_S540672 (constantI S_ 32 16384#32))) v)

/-- The aggregation at width 256, over the reference's records. -/
def layer256 (rowI colI : IVec S540672 32) (nrm : FVec F S540672 .f32) (H : FVec F S16384x256 .f32)
    (b : FVec F S256 .f32) : FVec F S16384x256 .f32 :=
  addf
    (Host.scatterAdd scatter_S16384x256_S540672x1_S540672x256_1_0_0_1
      (broadcastInDim S16384x256 ![] bcast_S_S16384x256 (constant S_ .f32 0x00000000#32))
      (broadcastInDim S540672x1 ![0] bcast_S540672_S540672x1_0 colI)
      (mulf (Host.gather gather_S16384x256_S540672x1_S540672x256_1_0_n_n_0_1_1256 H (wrapCol rowI))
        (broadcastInDim S540672x256 ![0, 1] bcast_S540672x1_S540672x256_0_1
          (broadcastInDim S540672x1 ![0] bcast_S540672_S540672x1_0 nrm))))
    (broadcastInDim S16384x256 ![0, 1] bcast_S1x256_S16384x256_0_1 (broadcastInDim S1x256 ![1] bcast_S256_S1x256_1 b))

/-- The aggregation at width 128. -/
def layer128 (rowI colI : IVec S540672 32) (nrm : FVec F S540672 .f32) (H : FVec F S16384x128 .f32)
    (b : FVec F S128 .f32) : FVec F S16384x128 .f32 :=
  addf
    (Host.scatterAdd scatter_S16384x128_S540672x1_S540672x128_1_0_0_1
      (broadcastInDim S16384x128 ![] bcast_S_S16384x128 (constant S_ .f32 0x00000000#32))
      (broadcastInDim S540672x1 ![0] bcast_S540672_S540672x1_0 colI)
      (mulf (Host.gather gather_S16384x128_S540672x1_S540672x128_1_0_n_n_0_1_1128 H (wrapCol rowI))
        (broadcastInDim S540672x128 ![0, 1] bcast_S540672x1_S540672x128_0_1
          (broadcastInDim S540672x1 ![0] bcast_S540672_S540672x1_0 nrm))))
    (broadcastInDim S16384x128 ![0, 1] bcast_S1x128_S16384x128_0_1 (broadcastInDim S1x128 ![1] bcast_S128_S1x128_1 b))

end Cert.ReferenceIdeal.Lay

end
-- ==== Proof.Norms.lean ====
/-
  The edge weights of a graph convolution's symmetric normalization, as the host spells them, named once over each
  printed program's own dimension records (the two definitions are the same text).
-/
import proofs.«171449_j66383014527469_2_alg».proof.Proof.Layers

noncomputable section

namespace Cert.KernelIdeal.Lay

open Cert.KernelIdeal Cert.KernelIdeal.Gen Idealize.ShloMosaic

variable {F : FTy → Type} [FloatOps F]

/-- The edge weights of the symmetric normalization, from the source and target words of the edges: the degree of a
    node is the number of edges landing on it (ones add-scattered at the target words into zeros); its factor is the
    reciprocal square root of max(degree, 1e-12) where the degree is positive and zero elsewhere; an edge's weight is
    the product of the factors gathered at its (numpy-wrapped) source and target words. -/
def normOf (rowI colI : IVec S540672 32) : FVec F S540672 .f32 :=
  let deg : FVec F S16384 .f32 :=
    Host.scatterAdd scatter_S16384_S540672x1_S540672_n_0_0_1
      (broadcastInDim S16384 ![] bcast_S_S16384 (constant S_ .f32 0x00000000#32))
      (broadcastInDim S540672x1 ![0] bcast_S540672_S540672x1_0 colI)
      (broadcastInDim S540672 ![] bcast_S_S540672 (constant S_ .f32 0x3F800000#32))
  let dis : FVec F S16384 .f32 :=
    select (cmpf (F := F) .ogt deg (broadcastInDim S16384 ![] bcast_S_S16384 (constant S_ .f32 0x00000000#32)))
      (Host.rsqrt (maximumf deg (broadcastInDim S16384 ![] bcast_S_S16384 (constant S_ .f32 0x2B8CBCCC#32))))
      (broadcastInDim S16384 ![] bcast_S_S16384 (id (constant S_ .f32 0x00000000#32)))
  mulf (Host.gather gather_S16384_S540672x1_S540672_n_0_n_n_0_1_1 dis (wrapCol rowI))
    (Host.gather gather_S16384_S540672x1_S540672_n_0_n_n_0_1_1 dis (wrapCol colI))

end Cert.KernelIdeal.Lay

namespace Cert.ReferenceIdeal.Lay

open Cert.ReferenceIdeal Cert.ReferenceIdeal.Gen Idealize.ShloMosaic

variable {F : FTy → Type} [FloatOps F]

/-- The edge weights of the symmetric normalization, from the source and target words of the edges: the degree of a
    node is the number of edges landing on it (ones add-scattered at the target words into zeros); its factor is the
    reciprocal square root of max(degree, 1e-12) where the degree is positive and zero elsewhere; an edge's weight is
    the product of the factors gathered at its (numpy-wrapped) source and target words. -/
def normOf (rowI colI : IVec S540672 32) : FVec F S540672 .f32 :=
  let deg : FVec F S16384 .f32 :=
    Host.scatterAdd scatter_S16384_S540672x1_S540672_n_0_0_1
      (broadcastInDim S16384 ![] bcast_S_S16384 (constant S_ .f32 0x00000000#32))
      (broadcastInDim S540672x1 ![0] bcast_S540672_S540672x1_0 colI)
      (broadcastInDim S540672 ![] bcast_S_S540672 (constant S_ .f32 0x3F800000#32))
  let dis : FVec F S16384 .f32 :=
    select (cmpf (F := F) .ogt deg (broadcastInDim S16384 ![] bcast_S_S16384 (constant S_ .f32 0x00000000#32)))
      (Host.rsqrt (maximumf deg (broadcastInDim S16384 ![] bcast_S_S16384 (constant S_ .f32 0x2B8CBCCC#32))))
      (broadcastInDim S16384 ![] bcast_S_S16384 (id (constant S_ .f32 0x00000000#32)))
  mulf (Host.gather gather_S16384_S540672x1_S540672_n_0_n_n_0_1_1 dis (wrapCol rowI))
    (Host.gather gather_S16384_S540672x1_S540672_n_0_n_n_0_1_1 dis (wrapCol colI))

end Cert.ReferenceIdeal.Lay

namespace Cert.Bridge

open Idealize.ShloMosaic

/-- The weights are one function whichever program's records spell them. -/
theorem normOf_eq {F : FTy → Type} [FloatOps F] :
    Cert.KernelIdeal.Lay.normOf (F := F) = Cert.ReferenceIdeal.Lay.normOf (F := F) := rfl

end Cert.Bridge

end
-- ==== Proof.Fold.lean ====
/-
  The idealized kernel program's buffers after each of its six segments, read at the buffers the value depends on.

  The three stretches of host operations are read back one at a time, each from an ARBITRARY valuation of the buffers
  it starts from: the first computes the edge tables (source words, target words) and the edge weights of the
  normalization; the second gathers, scales and sums the first product's rows, adds the bias, rectifies, and lays the
  two weight matrices and the two biases of the second layer side by side; the third does the same aggregation with
  the second product and slices the result into its two halves, the left one also rounded to the narrower float
  format for the last region. A buffer that a stretch does not write keeps its contents.
-/
import proofs.«171449_j66383014527469_2_alg».proof.Proof.Gen.KernelIdeal.Frame
import proofs.«171449_j66383014527469_2_alg».proof.Proof.RefRead
import proofs.«171449_j66383014527469_2_alg».proof.Proof.Norms
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]

/-- A line of operations run from a valuation is its first `k` run first and the rest run from what they leave. -/
theorem after_take_drop {τ : Topo} {sig : RefSig} {Val : EltTy → Type} (k : Nat) (ops : List (HloOp τ sig Val)) (V : Valuation τ sig Val) :
    StableHlo.after ops V = StableHlo.after (ops.drop k) (StableHlo.after (ops.take k) V) := by
  induction k generalizing ops V with
  | zero => rfl
  | succ k ih =>
    cases ops with
    | nil => rfl
    | cons op ops => exact ih ops (op.result V)

/-! ## The first stretch: the edge tables and the edge weights -/

section Stretch0

variable (V : Valuation τ sig (Elt F))

/-- After the first seven operations the source words of the edges (the first row of the edge list followed by the
    node numbers: the self-loops) are in place. -/
theorem pre0_v3 : StableHlo.after ((hostOps0 : List (HloOp τ sig (Elt F))).take 7) V (Proc.devRef .tc main_call0_v3)
    = Cert.ReferenceIdeal.ReadP.val_main_v3 (F := F) (V (Proc.devRef .tc main_arg1)) := by
  simp only [hostOps0, List.take_succ_cons, List.take_zero]
  after_results
  rfl

/-- And the target words (the second row followed by the node numbers). -/
theorem pre0_v6 : StableHlo.after ((hostOps0 : List (HloOp τ sig (Elt F))).take 7) V (Proc.devRef .tc main_call0_v6)
    = Cert.ReferenceIdeal.ReadP.val_main_v6 (F := F) (V (Proc.devRef .tc main_arg1)) := by
  simp only [hostOps0, List.take_succ_cons, List.take_zero]
  after_results
  rfl

/-- The source words after the whole stretch. -/
theorem s0_v3 : StableHlo.after (hostOps0 : List (HloOp τ sig (Elt F))) V (Proc.devRef .tc main_call0_v3)
    = Cert.ReferenceIdeal.ReadP.val_main_v3 (F := F) (V (Proc.devRef .tc main_arg1)) := by
  rw [after_take_drop 7 hostOps0, ← pre0_v3 V]
  generalize StableHlo.after ((hostOps0 : List (HloOp τ sig (Elt F))).take 7) V = Wp
  simp only [hostOps0, List.drop_succ_cons, List.drop_zero]
  after_results_simp

/-- The target words after the whole stretch. -/
theorem s0_v6 : StableHlo.after (hostOps0 : List (HloOp τ sig (Elt F))) V (Proc.devRef .tc main_call0_v6)
    = Cert.ReferenceIdeal.ReadP.val_main_v6 (F := F) (V (Proc.devRef .tc main_arg1)) := by
  rw [after_take_drop 7 hostOps0, ← pre0_v6 V]
  generalize StableHlo.after ((hostOps0 : List (HloOp τ sig (Elt F))).take 7) V = Wp
  simp only [hostOps0, List.drop_succ_cons, List.drop_zero]
  after_results_simp

/-- The edge weights after the whole stretch: the normalization of the two tables. -/
theorem s0_v31 : StableHlo.after (hostOps0 : List (HloOp τ sig (Elt F))) V (Proc.devRef .tc main_call0_v31)
    = Cert.KernelIdeal.Lay.normOf (F := F) (Cert.ReferenceIdeal.ReadP.val_main_v3 (F := F) (V (Proc.devRef .tc main_arg1)))
        (Cert.ReferenceIdeal.ReadP.val_main_v6 (F := F) (V (Proc.devRef .tc main_arg1))) := by
  rw [after_take_drop 7 hostOps0, ← pre0_v3 V, ← pre0_v6 V]
  generalize StableHlo.after ((hostOps0 : List (HloOp τ sig (Elt F))).take 7) V = Wp
  simp only [hostOps0, List.drop_succ_cons, List.drop_zero]
  after_results_simp
  rfl

/-- The first stretch writes no argument array. -/
theorem s0_arg0 (V : Valuation τ sig (Elt F)) : StableHlo.after (hostOps0 : List (HloOp τ sig (Elt F))) V (Proc.devRef .tc main_arg0) = V (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg2 (V : Valuation τ sig (Elt F)) : StableHlo.after (hostOps0 : List (HloOp τ sig (Elt F))) V (Proc.devRef .tc main_arg2) = V (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg3 (V : Valuation τ sig (Elt F)) : StableHlo.after (hostOps0 : List (HloOp τ sig (Elt F))) V (Proc.devRef .tc main_arg3) = V (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg4 (V : Valuation τ sig (Elt F)) : StableHlo.after (hostOps0 : List (HloOp τ sig (Elt F))) V (Proc.devRef .tc main_arg4) = V (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg5 (V : Valuation τ sig (Elt F)) : StableHlo.after (hostOps0 : List (HloOp τ sig (Elt F))) V (Proc.devRef .tc main_arg5) = V (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg6 (V : Valuation τ sig (Elt F)) : StableHlo.after (hostOps0 : List (HloOp τ sig (Elt F))) V (Proc.devRef .tc main_arg6) = V (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s0_arg7 (V : Valuation τ sig (Elt F)) : StableHlo.after (hostOps0 : List (HloOp τ sig (Elt F))) V (Proc.devRef .tc main_arg7) = V (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch0

/-! ## The second stretch: the first layer's aggregation, and the second layer's weights side by side -/

section Stretch1

variable (V : Valuation τ sig (Elt F))

/-- The first layer's output: the aggregation of the first product's rows, rectified. -/
theorem s1_v49 : StableHlo.after (hostOps1 : List (HloOp τ sig (Elt F))) V (Proc.devRef .tc main_call0_v49)
    = maximumf (Cert.KernelIdeal.Lay.layer256 (F := F) (V (Proc.devRef .tc main_call0_v3)) (V (Proc.devRef .tc main_call0_v6))
          (V (Proc.devRef .tc main_call0_v31)) (V (Proc.devRef .tc main_call0_v32)) (V (Proc.devRef .tc main_arg3)))
        (broadcastInDim S16384x256 ![] bcast_S_S16384x256 (constant S_ .f32 0x00000000#32)) := by
  simp only [hostOps1]
  after_results_simp
  rfl

/-- The two weight matrices of the second layer side by side. -/
theorem s1_v50 : StableHlo.after (hostOps1 : List (HloOp τ sig (Elt F))) V (Proc.devRef .tc main_call0_v50)
    = concatenate S256x256 1 [⟨S256x128, V (Proc.devRef .tc main_arg4)⟩, ⟨S256x128, V (Proc.devRef .tc main_arg6)⟩]
        concatenates_S256x128_S256x128_S256x256_d1 := by
  simp only [hostOps1]
  after_results
  rfl

/-- The two biases of the second layer joined. -/
theorem s1_v51 : StableHlo.after (hostOps1 : List (HloOp τ sig (Elt F))) V (Proc.devRef .tc main_call0_v51)
    = concatenate S256 0 [⟨S128, V (Proc.devRef .tc main_arg5)⟩, ⟨S128, V (Proc.devRef .tc main_arg7)⟩]
        concatenates_S128_S128_S256_d0 := by
  simp only [hostOps1]
  after_results
  rfl

/-- The second stretch leaves the edge tables and weights alone. -/
theorem s1_v3 (V : Valuation τ sig (Elt F)) : StableHlo.after (hostOps1 : List (HloOp τ sig (Elt F))) V (Proc.devRef .tc main_call0_v3) = V (Proc.devRef .tc main_call0_v3) :=
  StableHlo.after_of_forall_not_mem (b := Proc.devRef .tc main_call0_v3) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_v6 (V : Valuation τ sig (Elt F)) : StableHlo.after (hostOps1 : List (HloOp τ sig (Elt F))) V (Proc.devRef .tc main_call0_v6) = V (Proc.devRef .tc main_call0_v6) :=
  StableHlo.after_of_forall_not_mem (b := Proc.devRef .tc main_call0_v6) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem s1_v31 (V : Valuation τ sig (Elt F)) : StableHlo.after (hostOps1 : List (HloOp τ sig (Elt F))) V (Proc.devRef .tc main_call0_v31) = V (Proc.devRef .tc main_call0_v31) :=
  StableHlo.after_of_forall_not_mem (b := Proc.devRef .tc main_call0_v31) _ _ (List.forall_iff_forall_mem.mp (by
    simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Stretch1

/-! ## The third stretch: the second layer's aggregation, sliced into its halves -/

section Stretch2

variable (V : Valuation τ sig (Elt F))

/-- The left half of the second layer's output. -/
theorem s2_v0_1 : StableHlo.after (hostOps2 : List (HloOp τ sig (Elt F))) V (Proc.devRef .tc main_v0_1)
    = extractStridedSlice S16384x128 ![0, 0]
        (Cert.KernelIdeal.Lay.layer256 (F := F) (V (Proc.devRef .tc main_call0_v3)) (V (Proc.devRef .tc main_call0_v6))
          (V (Proc.devRef .tc main_call0_v31)) (V (Proc.devRef .tc main_call0_v52)) (V (Proc.devRef .tc main_call0_v51)))
        slices_S16384x256_S16384x128_0_0 := by
  simp only [hostOps2]
  after_results_simp
  rfl

/-- The right half. -/
theorem s2_v0_2 : StableHlo.after (hostOps2 : List (HloOp τ sig (Elt F))) V (Proc.devRef .tc main_v0_2)
    = extractStridedSlice S16384x128 ![0, 128]
        (Cert.KernelIdeal.Lay.layer256 (F := F) (V (Proc.devRef .tc main_call0_v3)) (V (Proc.devRef .tc main_call0_v6))
          (V (Proc.devRef .tc main_call0_v31)) (V (Proc.devRef .tc main_call0_v52)) (V (Proc.devRef .tc main_call0_v51)))
        slices_S16384x256_S16384x128_0_128 := by
  simp only [hostOps2]
  after_results_simp
  rfl

/-- The left half rounded to the narrower float format: what the last region reads. -/
theorem s2_v71 : StableHlo.after (hostOps2 : List (HloOp τ sig (Elt F))) V (Proc.devRef .tc main_call0_v71)
    = truncf .bf16 (extractStridedSlice S16384x128 ![0, 0]
        (Cert.KernelIdeal.Lay.layer256 (F := F) (V (Proc.devRef .tc main_call0_v3)) (V (Proc.devRef .tc main_call0_v6))
          (V (Proc.devRef .tc main_call0_v31)) (V (Proc.devRef .tc main_call0_v52)) (V (Proc.devRef .tc main_call0_v51)))
        slices_S16384x256_S16384x128_0_0) bitsLt_bf16_f32 := by
  simp only [hostOps2]
  after_results_simp
  rfl

end Stretch2

end Cert.KernelIdeal.Fold

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«171449_j66383014527469_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«171449_j66383014527469_2_alg».proof.Proof.LibMatmulPlain
import proofs.«171449_j66383014527469_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.RegionLinear.lean ====
/-
  The two tiled linear kernels, as whole-array facts.

  Each of the first two regions multiplies a tall matrix a [16384, K] by a weight w [K, 256] in eight row tiles of 2048
  rows: grid point t reads rows 2048·t … 2048·t + 2047 of a and the whole of w, and writes the same rows of the output.
  On the extended reals the narrowing casts are the identity and the matrix unit's product into a zero accumulator is the
  exact K-term sum, so each tile written is the matching row tile of the plain product mm a w; the eight tiles cover
  every row, so after the last grid point the output array IS mm a w, of the two input arrays as the region found them.
  (K = 512 in region 0, K = 256 in region 1.)
-/
import proofs.«171449_j66383014527469_2_alg».proof.Proof.Gen.KernelIdeal.Frame
import proofs.«171449_j66383014527469_2_alg».proof.Proof.LibDenseLayers
import Idealize.ShloMosaic.Lib.Pipeline.Value
import Idealize.ShloMosaic.Lib.ValueIdx
import Idealize.ShloMosaic.PureOps.Ideal.Laws
noncomputable section
namespace Cert.KernelIdeal.RegionValue
open Idealize.ShloMosaic Idealize.ShloMosaic.TcCoe Idealize.ShloMosaic.ValueIdx Idealize.SL.Sem Cert.KernelIdeal Cert.KernelIdeal.Gen

/-- The offsets (0, 0), however spelt, are zero on both axes. -/
theorem zero_offsets : (![0, 0] : Fin 2 → Nat) = fun _ => 0 := funext fun a => by fin_cases a <;> rfl

/-! ## Region 0: [16384, 512] by [512, 256], in row tiles of 2048 -/

/-- One tile: the product of a 2048-row tile (narrowed to the shorter float format, the identity here) with the narrowed
    weight, taken into a zero accumulator, is the plain product of the tile with the weight. -/
theorem tile0_eq_mm (x0 : Vec Ideal S2048x512 .f32) (x1 : Vec Ideal S512x256 .f32) :
    k0_pay1 x0 x1 = Cert.Layers.mm x0 x1 := by
  unfold k0_pay1
  exact Cert.Layers.tileMm_eq dot_S2048x512_S512x256_S2048x256_1_0_0_1_n_n dot_S2048x512_S512x256_S2048x256_1_0_0_1_n_n_wf rfl _ x1 _

/-- The block indices at each of the eight grid points: the left matrix's row block is the output's row block and its
    column block is 0; the weight's block is (0, 0); the output's column block is 0 and its row block is at most 7. -/
theorem block_index0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every one of the eight row blocks of the output is some grid point's. -/
theorem block_index_onto0 : ∀ q0 : Fin 8, ∃ t : Fin cfg0.N, win0_2.index t (0 : Fin 2) = q0.val :=
  (by decide +kernel : ∀ q0 : Fin 8, ∃ t : Fin grid0.N, win0_2.index t (0 : Fin 2) = q0.val)

/-- Entry j = (p, q) of the tile at point t: the 512-term sum over the left matrix's block row p and the weight's block
    column q is the sum over row (row block)·2048 + p of the whole left matrix and column q of the whole weight — the
    entry of the plain product at j's place in the output array. A block's coordinate in its array is the block index
    times the block's extent plus the coordinate inside the block. -/
theorem tile_sum0 (A : S16384x512.Idx → EReal) (W : S512x256.Idx → EReal) (t : Fin cfg0.N) (j : S2048x256.Idx) :
    (∑ k : Fin 512, A (((cfg0.win 0).blk t).view.emb (ix2 (j 0) k : S2048x512.Idx))
        * W (((cfg0.win 1).blk t).view.emb (ix2 k (j 1) : S512x256.Idx)))
      = ∑ k : Fin 512, A (ix2 ((((cfg0.win 2).blk t).view.emb j) 0) k)
        * W (ix2 k ((((cfg0.win 2).blk t).view.emb j) 1)) := by
  obtain ⟨e0, e1, e2, e3, e4, e5⟩ := block_index0 t
  refine Finset.sum_congr rfl fun k _ => ?_
  have h0 : ((cfg0.win 0).blk t).view.emb (ix2 (j 0) k : S2048x512.Idx)
      = (ix2 ((((cfg0.win 2).blk t).view.emb j) 0) k : S16384x512.Idx) := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have h1 : ((cfg0.win 1).blk t).view.emb (ix2 k (j 1) : S512x256.Idx)
      = (ix2 k ((((cfg0.win 2).blk t).view.emb j) 1) : S512x256.Idx) := by
    funext a; apply Fin.ext
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-- What grid point t writes back is row tile t of the plain product of the two input arrays as the region found them. -/
theorem written0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Layers.mm (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2048x512) zero_offsets, View.ld_unit_zero (S := S512x256) zero_offsets]
  rw [tile0_eq_mm]
  funext j
  exact tile_sum0 (V c main_arg0) (V c main_arg2) t j

/-- An index of the output array is in point t's block iff each coordinate is in the block's range on its axis. -/
theorem mem_block0 (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_call0_v32).slice (win0_2.rect t)).set ↔ _
  rw [View.set_slice_whole, Rect.mem_set_unit]
  exact Iff.rfl

/-- The eight row tiles cover the output array: row r is in the tile of the point whose row block is r / 2048, and every
    point writes its tile back. -/
theorem covered0 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  obtain ⟨t, ht⟩ := block_index_onto0 ⟨(i 0).val / 2048, by omega⟩
  have q0 : win0_2.index t (0 : Fin 2) = (i 0).val / 2048 := ht
  obtain ⟨e0, e1, e2, e3, e4, e5⟩ := block_index0 t
  refine ⟨t, flush0_2 t, ?_⟩
  rw [mem_block0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- After all eight grid points of region 0 its output array is the plain product of its two input arrays — the
    [16384, 512] matrix and the [512, 256] weight — as the region found them. -/
theorem region0_value (V : (c : Dev nD) → (b : Ref sig .tc) → Buf (Elt Ideal) ((c : Thread nD τ).loc b)) (c : Dev nD) :
    (dat0 (F := Ideal) V c).arrAt 2 cfg0.N = Cert.Layers.mm (V c main_arg0) (V c main_arg2) :=
  (dat0 (F := Ideal) V c).arrAt_eq_of_cover 2 _ (fun t _ => written0_eq V c t) covered0

/-! ## Region 1: [16384, 256] by [256, 256], in row tiles of 2048 -/

/-- One tile: the product of a 2048-row tile (narrowed to the shorter float format, the identity here) with the narrowed
    weight, taken into a zero accumulator, is the plain product of the tile with the weight. -/
theorem tile1_eq_mm (x0 : Vec Ideal S2048x256 .f32) (x1 : Vec Ideal S256x256 .f32) :
    k1_pay1 x0 x1 = Cert.Layers.mm x0 x1 := by
  unfold k1_pay1
  rw [shapeCast_self, shapeCast_self]
  exact Cert.Layers.tileMm_eq dot_S2048x256_S256x256_S2048x256_1_0_0_1_n_n dot_S2048x256_S256x256_S2048x256_1_0_0_1_n_n_wf rfl _ x1 _

/-- The block indices at each of the eight grid points: the left matrix's row block is the output's row block and its
    column block is 0; the weight's block is (0, 0); the output's column block is 0 and its row block is at most 7. -/
theorem block_index1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every one of the eight row blocks of the output is some grid point's. -/
theorem block_index_onto1 : ∀ q0 : Fin 8, ∃ t : Fin cfg1.N, win1_2.index t (0 : Fin 2) = q0.val :=
  (by decide +kernel : ∀ q0 : Fin 8, ∃ t : Fin grid1.N, win1_2.index t (0 : Fin 2) = q0.val)

/-- Entry j = (p, q) of the tile at point t: the 256-term sum over the left matrix's block row p and the weight's block
    column q is the sum over row (row block)·2048 + p of the whole left matrix and column q of the whole weight — the
    entry of the plain product at j's place in the output array. A block's coordinate in its array is the block index
    times the block's extent plus the coordinate inside the block. -/
theorem tile_sum1 (A : S16384x256.Idx → EReal) (W : S256x256.Idx → EReal) (t : Fin cfg1.N) (j : S2048x256.Idx) :
    (∑ k : Fin 256, A (((cfg1.win 0).blk t).view.emb (ix2 (j 0) k : S2048x256.Idx))
        * W (((cfg1.win 1).blk t).view.emb (ix2 k (j 1) : S256x256.Idx)))
      = ∑ k : Fin 256, A (ix2 ((((cfg1.win 2).blk t).view.emb j) 0) k)
        * W (ix2 k ((((cfg1.win 2).blk t).view.emb j) 1)) := by
  obtain ⟨e0, e1, e2, e3, e4, e5⟩ := block_index1 t
  refine Finset.sum_congr rfl fun k _ => ?_
  have h0 : ((cfg1.win 0).blk t).view.emb (ix2 (j 0) k : S2048x256.Idx)
      = (ix2 ((((cfg1.win 2).blk t).view.emb j) 0) k : S16384x256.Idx) := by
    funext a; apply Fin.ext
    match a with
    | ⟨0, _⟩ => show win1_0.index t (0 : Fin 2) * 2048 + 1 * (j 0).val = win1_2.index t (0 : Fin 2) * 2048 + 1 * (j 0).val; omega
    | ⟨1, _⟩ => show win1_0.index t (1 : Fin 2) * 256 + 1 * k.val = k.val; omega
  have h1 : ((cfg1.win 1).blk t).view.emb (ix2 k (j 1) : S256x256.Idx)
      = (ix2 k ((((cfg1.win 2).blk t).view.emb j) 1) : S256x256.Idx) := by
    funext a; apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega
  rw [h0, h1]

/-- What grid point t writes back is row tile t of the plain product of the two input arrays as the region found them. -/
theorem written1_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Layers.mm (V c main_call0_v49) (V c main_call0_v50)) := by
  show (cfg1.win 2).cut (grid1.coords t) ((dat1 (F := Ideal) V c).after 2 t) = _
  rw [after1_2]
  unfold out1_2
  rw [View.canon_unit_zero zero_offsets]
  simp only [View.ld_unit_zero (S := S2048x256) zero_offsets, View.ld_unit_zero (S := S256x256) zero_offsets]
  rw [tile1_eq_mm]
  funext j
  exact tile_sum1 (V c main_call0_v49) (V c main_call0_v50) t j

/-- An index of the output array is in point t's block iff each coordinate is in the block's range on its axis. -/
theorem mem_block1 (t : Fin cfg1.N) (i : S16384x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_call0_v52).slice (win1_2.rect t)).set ↔ _
  rw [View.set_slice_whole, Rect.mem_set_unit]
  exact Iff.rfl

/-- The eight row tiles cover the output array: row r is in the tile of the point whose row block is r / 2048, and every
    point writes its tile back. -/
theorem covered1 (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  obtain ⟨t, ht⟩ := block_index_onto1 ⟨(i 0).val / 2048, by omega⟩
  have q0 : win1_2.index t (0 : Fin 2) = (i 0).val / 2048 := ht
  obtain ⟨e0, e1, e2, e3, e4, e5⟩ := block_index1 t
  refine ⟨t, flush1_2 t, ?_⟩
  rw [mem_block1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

/-- After all eight grid points of region 1 its output array is the plain product of its two input arrays — the
    [16384, 256] matrix and the [256, 256] weight — as the region found them. -/
theorem region1_value (V : (c : Dev nD) → (b : Ref sig .tc) → Buf (Elt Ideal) ((c : Thread nD τ).loc b)) (c : Dev nD) :
    (dat1 (F := Ideal) V c).arrAt 2 cfg1.N = Cert.Layers.mm (V c main_call0_v49) (V c main_call0_v50) :=
  (dat1 (F := Ideal) V c).arrAt_eq_of_cover 2 _ (fun t _ => written1_eq V c t) covered1

end Cert.KernelIdeal.RegionValue

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LayerSplit.lean ====
/-
  The second graph-convolution layer computed once at width 256, with two weight matrices side by side and the two
  biases joined, is the layer computed twice at width 128.

  One aggregation sends a node feature matrix H and a bias b to the matrix whose entry (p, q) is

      (0 + Σ_{e : target e = p} H(source e, q) · weight e) + b q.

  Gathering rows, scaling rows, add-scattering rows and repeating a bias down the rows all act column by column: entry
  (p, q) of the result only ever reads column q of H and entry q of b. So column q < 128 of the wide layer is column q
  of the narrow layer of the left halves, and column 128 + q that of the right halves. Nothing but the term-by-term
  agreement of two sums is used.
-/
import proofs.«171449_j66383014527469_2_alg».proof.Proof.Layers
import proofs.«171449_j66383014527469_2_alg».proof.Proof.LibScatterRows
import proofs.«171449_j66383014527469_2_alg».proof.Proof.LibGatherRows
import proofs.«171449_j66383014527469_2_alg».proof.Proof.LibDenseLayers
import Idealize.ShloMosaic.Lib.Pipeline.Value
import Idealize.ShloMosaic.Lib.ValueIdx
import Idealize.ShloMosaic.PureOps.Ideal.Laws
noncomputable section
namespace Cert.Bridge
open Idealize.ShloMosaic Idealize.ShloMosaic.ValueIdx

/-! ## The operations of one aggregation read at an entry, for any extents -/

section Read
variable {N E C : Nat} {α : Type}

/-- A scalar repeated over a matrix reads the scalar everywhere. -/
theorem fill_apply (h : (⟨0, ![]⟩ : Shape).BroadcastsInDim ⟨2, ![N, C]⟩ ![]) (x : (⟨0, ![]⟩ : Shape).Idx → α)
    (p : Fin N) (q : Fin C) : broadcastInDim ⟨2, ![N, C]⟩ ![] h x (ix2 p q) = x ix0 :=
  broadcastInDim_apply _ h x (ix2 p q) ix0 fun ax => ax.elim0

/-- A vector laid out as one column reads, in row e, its entry e. -/
theorem column_apply (h : (⟨1, ![E]⟩ : Shape).BroadcastsInDim ⟨2, ![E, 1]⟩ ![0]) (v : (⟨1, ![E]⟩ : Shape).Idx → α)
    (e : Fin E) : broadcastInDim ⟨2, ![E, 1]⟩ ![0] h v (ix2 e 0) = v (ix1 e) := by
  refine broadcastInDim_apply _ h v (ix2 e 0) (ix1 e) fun ax => ?_
  match ax with
  | ⟨0, _⟩ =>
    show e.val = if E = 1 then 0 else e.val
    have := e.isLt
    split_ifs with h1 <;> omega

/-- A column repeated along C columns reads, at (e, q), the column's row e. -/
theorem spread_apply (h : (⟨2, ![E, 1]⟩ : Shape).BroadcastsInDim ⟨2, ![E, C]⟩ ![0, 1])
    (v : (⟨2, ![E, 1]⟩ : Shape).Idx → α) (e : Fin E) (q : Fin C) :
    broadcastInDim ⟨2, ![E, C]⟩ ![0, 1] h v (ix2 e q) = v (ix2 e 0) := by
  refine broadcastInDim_apply _ h v (ix2 e q) (ix2 e 0) fun ax => ?_
  match ax with
  | ⟨0, _⟩ =>
    show e.val = if E = 1 then 0 else e.val
    have := e.isLt
    split_ifs with h1 <;> omega
  | ⟨1, _⟩ =>
    show (0 : Nat) = if (1 : Nat) = 1 then 0 else q.val
    rw [if_pos rfl]

end Read

/-! ## One aggregation read at an entry, for any extents -/

section Aggregate
variable {N E C : Nat}

/-- ONE AGGREGATION READ AT (p, q): the zero, plus the sum over the edges e whose target word is p of entry q of the
    row of H that the source word of e selects times the weight of e, plus entry q of the bias. Only column q of H and
    entry q of b occur. -/
theorem aggregate_apply (hN : 0 < N)
    (sd : ScatterDims ⟨2, ![N, C]⟩ ⟨2, ![E, 1]⟩ ⟨2, ![E, C]⟩)
    (swf : ScatterDims.WF ⟨2, ![N, C]⟩ ⟨2, ![E, 1]⟩ ⟨2, ![E, C]⟩ [1] [0] [0] 1)
    (hsd : sd = ScatterRows.rowsDims N E C swf)
    (gd : GatherDims ⟨2, ![N, C]⟩ ⟨2, ![E, 1]⟩ ⟨2, ![E, C]⟩)
    (gwf : GatherDims.WF ⟨2, ![N, C]⟩ ⟨2, ![E, 1]⟩ ⟨2, ![E, C]⟩ [1] [0] [] [0] [] 1 ![1, C])
    (hgd : gd = GatherRows.rowsDims N E C gwf)
    (hz : (⟨0, ![]⟩ : Shape).BroadcastsInDim ⟨2, ![N, C]⟩ ![])
    (hc : (⟨1, ![E]⟩ : Shape).BroadcastsInDim ⟨2, ![E, 1]⟩ ![0])
    (hw : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (rowW : IVec ⟨2, ![E, 1]⟩ 32) (colI : IVec ⟨1, ![E]⟩ 32) (nrm : FVec Ideal ⟨1, ![E]⟩ .f32)
    (H : FVec Ideal ⟨2, ![N, C]⟩ .f32) (b : FVec Ideal ⟨1, ![C]⟩ .f32) (p : Fin N) (q : Fin C) :
    addf
        (Host.scatterAdd sd
          (broadcastInDim ⟨2, ![N, C]⟩ ![] hz (constant ⟨0, ![]⟩ .f32 0x00000000#32))
          (broadcastInDim ⟨2, ![E, 1]⟩ ![0] hc colI)
          (mulf (Host.gather gd H rowW)
            (broadcastInDim ⟨2, ![E, C]⟩ ![0, 1] hw (broadcastInDim ⟨2, ![E, 1]⟩ ![0] hc nrm))))
        (broadcastInDim ⟨2, ![N, C]⟩ ![0, 1] hb2 (broadcastInDim ⟨2, ![1, C]⟩ ![1] hb1 b)) (ix2 p q)
      = (Ideal.ofBits .f32 0x00000000#32
          + ∑ e : Fin E, if (colI (ix1 e)).toInt = (p.val : ℤ)
              then H (ix2 (GatherRows.clampRow N hN (rowW (ix2 e 0))) q) * nrm (ix1 e) else 0)
        + b (ix1 q) := by
  subst hsd hgd
  rw [addf_apply, Cert.Layers.hostBias_eq b hb1 hb2]
  show Ideal.hostScatterAdd (ScatterRows.rowsDims N E C swf) _ _ _ (ix2 p q) + b (ix1 q) = _
  rw [ScatterRows.rows_scatterAdd_apply swf, fill_apply hz]
  congr 2
  refine Finset.sum_congr rfl fun e _ => ?_
  rw [column_apply hc colI e, mulf_apply, GatherRows.rows_gather_apply hN gwf, spread_apply hw, column_apply hc nrm e]

end Aggregate

/-! ## The three spellings read at an entry -/

/-- The two programs spell the wrapped index column with the same words. -/
theorem wrapCol_eq (v : IVec Cert.KernelIdeal.S540672 32) :
    Cert.KernelIdeal.Lay.wrapCol v = Cert.ReferenceIdeal.Lay.wrapCol v := rfl

/-- The value of the all-zero f32 word. -/
abbrev zeroF : EReal := Ideal.ofBits .f32 0x00000000#32

/-- The aggregation's value at (p, q) as a function of column q of the features and entry q of the bias. -/
def entry {C : Nat} (rowI colI : IVec Cert.KernelIdeal.S540672 32) (nrm : FVec Ideal Cert.KernelIdeal.S540672 .f32)
    (H : FVec Ideal ⟨2, ![16384, C]⟩ .f32) (b : FVec Ideal ⟨1, ![C]⟩ .f32) (p : Fin 16384) (q : Fin C) : EReal :=
  (zeroF + ∑ e : Fin 540672, if (colI (ix1 e)).toInt = (p.val : ℤ)
      then H (ix2 (GatherRows.clampRow 16384 (by omega) (Cert.ReferenceIdeal.Lay.wrapCol rowI (ix2 e 0))) q) * nrm (ix1 e)
      else 0)
    + b (ix1 q)

/-- The kernel program's width-256 layer at an entry. -/
theorem kernel_layer256_apply (rowI colI : IVec Cert.KernelIdeal.S540672 32) (nrm : FVec Ideal Cert.KernelIdeal.S540672 .f32)
    (H : FVec Ideal Cert.KernelIdeal.S16384x256 .f32) (b : FVec Ideal Cert.KernelIdeal.S256 .f32) (p : Fin 16384) (q : Fin 256) :
    Cert.KernelIdeal.Lay.layer256 (F := Ideal) rowI colI nrm H b (ix2 p q) = entry rowI colI nrm H b p q := by
  unfold Cert.KernelIdeal.Lay.layer256 entry
  rw [← wrapCol_eq]
  exact aggregate_apply (N := 16384) (E := 540672) (C := 256) (by omega) _
    Cert.KernelIdeal.Facts₀.scatter_S16384x256_S540672x1_S540672x256_1_0_0_1_wf rfl _
    Cert.KernelIdeal.Facts₀.gather_S16384x256_S540672x1_S540672x256_1_0_n_n_0_1_1256_wf rfl
    _ _ _ _ _ _ colI nrm H b p q

/-- The reference's width-256 layer at an entry. -/
theorem reference_layer256_apply (rowI colI : IVec Cert.KernelIdeal.S540672 32) (nrm : FVec Ideal Cert.KernelIdeal.S540672 .f32)
    (H : FVec Ideal Cert.KernelIdeal.S16384x256 .f32) (b : FVec Ideal Cert.KernelIdeal.S256 .f32) (p : Fin 16384) (q : Fin 256) :
    Cert.ReferenceIdeal.Lay.layer256 (F := Ideal) rowI colI nrm H b (ix2 p q) = entry rowI colI nrm H b p q := by
  unfold Cert.ReferenceIdeal.Lay.layer256 entry
  exact aggregate_apply (N := 16384) (E := 540672) (C := 256) (by omega) _
    Cert.ReferenceIdeal.Facts₀.scatter_S16384x256_S540672x1_S540672x256_1_0_0_1_wf rfl _
    Cert.ReferenceIdeal.Facts₀.gather_S16384x256_S540672x1_S540672x256_1_0_n_n_0_1_1256_wf rfl
    _ _ _ _ _ _ colI nrm H b p q

/-- The reference's width-128 layer at an entry. -/
theorem reference_layer128_apply (rowI colI : IVec Cert.KernelIdeal.S540672 32) (nrm : FVec Ideal Cert.KernelIdeal.S540672 .f32)
    (H : FVec Ideal Cert.ReferenceIdeal.S16384x128 .f32) (b : FVec Ideal Cert.KernelIdeal.S128 .f32) (p : Fin 16384) (q : Fin 128) :
    Cert.ReferenceIdeal.Lay.layer128 (F := Ideal) rowI colI nrm H b (ix2 p q) = entry rowI colI nrm H b p q := by
  unfold Cert.ReferenceIdeal.Lay.layer128 entry
  exact aggregate_apply (N := 16384) (E := 540672) (C := 128) (by omega) _
    Cert.ReferenceIdeal.Facts₀.scatter_S16384x128_S540672x1_S540672x128_1_0_0_1_wf rfl _
    Cert.ReferenceIdeal.Facts₀.gather_S16384x128_S540672x1_S540672x128_1_0_n_n_0_1_1128_wf rfl
    _ _ _ _ _ _ colI nrm H b p q

/-! ## The halves of the wide layer -/

/-- The left half of the wide layer is the narrow layer of the left operand. -/
theorem layer_left (rowI colI : IVec Cert.KernelIdeal.S540672 32) (nrm : FVec Ideal Cert.KernelIdeal.S540672 .f32)
    (R : FVec Ideal Cert.KernelIdeal.S16384x256 .f32) (D : FVec Ideal Cert.ReferenceIdeal.S16384x128 .f32)
    (b1 b2 : FVec Ideal Cert.KernelIdeal.S128 .f32)
    (hRD : ∀ (r : Fin 16384) (q : Fin 128), R (ix2 r (⟨q.val, by omega⟩ : Fin 256)) = D (ix2 r q)) :
    extractStridedSlice Cert.KernelIdeal.S16384x128 ![0, 0]
        (Cert.KernelIdeal.Lay.layer256 (F := Ideal) rowI colI nrm R
          (concatenate Cert.KernelIdeal.S256 0 [⟨Cert.KernelIdeal.S128, b1⟩, ⟨Cert.KernelIdeal.S128, b2⟩]
            Cert.KernelIdeal.Facts₀.concatenates_S128_S128_S256_d0))
        Cert.KernelIdeal.Facts₀.slices_S16384x256_S16384x128_0_0
      = Cert.ReferenceIdeal.Lay.layer128 (F := Ideal) rowI colI nrm D b1 := by
  funext i
  obtain ⟨p, q, rfl⟩ : ∃ (p : Fin 16384) (q : Fin 128), i = ix2 p q := ⟨i 0, i 1, eq_ix2 i⟩
  refine (extractStridedSlice_apply _ _ _ (ix2 p q) (ix2 p (⟨q.val, by omega⟩ : Fin 256)) fun a => ?_).trans ?_
  · match a with
    | ⟨0, _⟩ => show p.val = 0 + p.val; omega
    | ⟨1, _⟩ => show q.val = 0 + q.val; omega
  refine (kernel_layer256_apply rowI colI nrm R _ p _).trans
    (Eq.trans ?_ (reference_layer128_apply rowI colI nrm D b1 p q).symm)
  unfold entry
  refine congrArg₂ (fun x y : EReal => (zeroF + x) + y) (Finset.sum_congr rfl fun e _ => ?_) ?_
  · rw [hRD]
  · refine concatenate_pair_apply_left (t := Cert.KernelIdeal.S256) _ b1 b2 _ _ rfl (ix1 q) fun a => ?_
    match a with
    | ⟨0, _⟩ => rfl

/-- The right half of the wide layer is the narrow layer of the right operand. -/
theorem layer_right (rowI colI : IVec Cert.KernelIdeal.S540672 32) (nrm : FVec Ideal Cert.KernelIdeal.S540672 .f32)
    (R : FVec Ideal Cert.KernelIdeal.S16384x256 .f32) (D : FVec Ideal Cert.ReferenceIdeal.S16384x128 .f32)
    (b1 b2 : FVec Ideal Cert.KernelIdeal.S128 .f32)
    (hRD : ∀ (r : Fin 16384) (q : Fin 128), R (ix2 r (⟨128 + q.val, by omega⟩ : Fin 256)) = D (ix2 r q)) :
    extractStridedSlice Cert.KernelIdeal.S16384x128 ![0, 128]
        (Cert.KernelIdeal.Lay.layer256 (F := Ideal) rowI colI nrm R
          (concatenate Cert.KernelIdeal.S256 0 [⟨Cert.KernelIdeal.S128, b1⟩, ⟨Cert.KernelIdeal.S128, b2⟩]
            Cert.KernelIdeal.Facts₀.concatenates_S128_S128_S256_d0))
        Cert.KernelIdeal.Facts₀.slices_S16384x256_S16384x128_0_128
      = Cert.ReferenceIdeal.Lay.layer128 (F := Ideal) rowI colI nrm D b2 := by
  funext i
  obtain ⟨p, q, rfl⟩ : ∃ (p : Fin 16384) (q : Fin 128), i = ix2 p q := ⟨i 0, i 1, eq_ix2 i⟩
  refine (extractStridedSlice_apply _ _ _ (ix2 p q) (ix2 p (⟨128 + q.val, by omega⟩ : Fin 256)) fun a => ?_).trans ?_
  · match a with
    | ⟨0, _⟩ => show p.val = 0 + p.val; omega
    | ⟨1, _⟩ => show 128 + q.val = 128 + q.val; rfl
  refine (kernel_layer256_apply rowI colI nrm R _ p _).trans
    (Eq.trans ?_ (reference_layer128_apply rowI colI nrm D b2 p q).symm)
  unfold entry
  refine congrArg₂ (fun x y : EReal => (zeroF + x) + y) (Finset.sum_congr rfl fun e _ => ?_) ?_
  · rw [hRD]
  · refine concatenate_pair_apply_right (t := Cert.KernelIdeal.S256) _ b1 b2 _ _ rfl rfl (ix1 q) (fun a ha => ?_) ?_
    · match a with
      | ⟨0, _⟩ => exact absurd rfl ha
    · show q.val + 128 = 128 + q.val
      omega

/-! ## A product with two weight matrices side by side -/

/-- A product with two weight matrices side by side, at a left column, is the product with the left matrix. -/
theorem mm_cat_left (h : FVec Ideal Cert.KernelIdeal.S16384x256 .f32) (W1 W2 : FVec Ideal Cert.KernelIdeal.S256x128 .f32)
    (r : Fin 16384) (q : Fin 128) :
    Cert.Layers.mm h (concatenate Cert.KernelIdeal.S256x256 1 [⟨Cert.KernelIdeal.S256x128, W1⟩, ⟨Cert.KernelIdeal.S256x128, W2⟩]
        Cert.KernelIdeal.Facts₀.concatenates_S256x128_S256x128_S256x256_d1) (ix2 r (⟨q.val, by omega⟩ : Fin 256))
      = Host.dotGeneral Cert.ReferenceIdeal.dot_S16384x256_S256x128_S16384x128_1_0_0_1_n_n none h W1 (ix2 r q) := by
  rw [Cert.Layers.hostMm_eq Cert.ReferenceIdeal.dot_S16384x256_S256x128_S16384x128_1_0_0_1_n_n
      Cert.ReferenceIdeal.Facts₀.dot_S16384x256_S256x128_S16384x128_1_0_0_1_n_n_wf rfl h W1,
    Cert.Layers.mm_apply, Cert.Layers.mm_apply]
  refine Finset.sum_congr rfl fun j _ => ?_
  congr 1
  refine concatenate_pair_apply_left (t := Cert.KernelIdeal.S256x256) _ W1 W2 _ _ rfl (ix2 j q) fun a => ?_
  match a with
  | ⟨0, _⟩ => rfl
  | ⟨1, _⟩ => rfl

/-- A product with two weight matrices side by side, at a right column, is the product with the right matrix. -/
theorem mm_cat_right (h : FVec Ideal Cert.KernelIdeal.S16384x256 .f32) (W1 W2 : FVec Ideal Cert.KernelIdeal.S256x128 .f32)
    (r : Fin 16384) (q : Fin 128) :
    Cert.Layers.mm h (concatenate Cert.KernelIdeal.S256x256 1 [⟨Cert.KernelIdeal.S256x128, W1⟩, ⟨Cert.KernelIdeal.S256x128, W2⟩]
        Cert.KernelIdeal.Facts₀.concatenates_S256x128_S256x128_S256x256_d1) (ix2 r (⟨128 + q.val, by omega⟩ : Fin 256))
      = Host.dotGeneral Cert.ReferenceIdeal.dot_S16384x256_S256x128_S16384x128_1_0_0_1_n_n none h W2 (ix2 r q) := by
  rw [Cert.Layers.hostMm_eq Cert.ReferenceIdeal.dot_S16384x256_S256x128_S16384x128_1_0_0_1_n_n
      Cert.ReferenceIdeal.Facts₀.dot_S16384x256_S256x128_S16384x128_1_0_0_1_n_n_wf rfl h W2,
    Cert.Layers.mm_apply, Cert.Layers.mm_apply]
  refine Finset.sum_congr rfl fun j _ => ?_
  congr 1
  refine concatenate_pair_apply_right (t := Cert.KernelIdeal.S256x256) _ W1 W2 _ _ rfl rfl (ix2 j q) (fun a ha => ?_) ?_
  · match a with
    | ⟨0, _⟩ => rfl
    | ⟨1, _⟩ => exact absurd rfl ha
  · show q.val + 128 = 128 + q.val
    omega

/-! ## One function under two spellings -/

/-- The width-256 layer is one function whichever program's records spell it. -/
theorem layer256_eq : Cert.KernelIdeal.Lay.layer256 (F := Ideal) = Cert.ReferenceIdeal.Lay.layer256 (F := Ideal) := by
  funext rowI colI nrm H b i
  obtain ⟨p, q, rfl⟩ : ∃ (p : Fin 16384) (q : Fin 256), i = ix2 p q := ⟨i 0, i 1, eq_ix2 i⟩
  rw [kernel_layer256_apply, reference_layer256_apply]

end Cert.Bridge

end
-- ==== Proof.RefSide.lean ====
/-
  The reference program's stages, folded into the layer vocabulary.

  The reference runs a graph convolution three times — once at width 256 (followed by the rectifier) and twice at
  width 128 — and each time rebuilds the same edge tables from the edge list: the source words and the target words
  (the edge list's two rows, each followed by 0 … 16383 for the self-loops) and the symmetric-normalization weight of
  every edge. The three rebuilds are the same operations on the same argument, so they are equal; each run's output is
  one aggregation layer (gather the feature rows at the sources, scale by the weights, add-scatter at the targets, add
  the bias) of the first run's tables and that run's feature matrix. On the extended reals the host's plain products
  are the matrix product entry by entry, and the last product, a matrix with its own transpose, has entry (r, c) the
  sum over k of mu(r, k) · mu(c, k).
-/
import proofs.«171449_j66383014527469_2_alg».proof.Proof.RefRead
import proofs.«171449_j66383014527469_2_alg».proof.Proof.Norms
import proofs.«171449_j66383014527469_2_alg».proof.Proof.LibDenseLayers
import Idealize.ShloMosaic.Lib.Pipeline.Value
import Idealize.ShloMosaic.Lib.ValueIdx
import Idealize.ShloMosaic.PureOps.Ideal.Laws
noncomputable section
namespace Cert.ReferenceIdeal.RefSide
open Idealize.ShloMosaic Idealize.ShloMosaic.ValueIdx Cert.ReferenceIdeal Cert.ReferenceIdeal.Gen Cert.ReferenceIdeal.ReadP

variable {F : FTy → Type} [FloatOps F]

/-! ## The edge tables: rebuilt each run, the same every time -/

/-- The second run's source words are the first run's: the same row of the edge list followed by the same 0 … 16383. -/
theorem v53_eq (x1 : (⟨S2x524288, .i32⟩ : BufTy).Contents (Elt F)) : val_main_v53 (F := F) x1 = val_main_v3 (F := F) x1 := rfl

/-- The second run's target words are the first run's. -/
theorem v56_eq (x1 : (⟨S2x524288, .i32⟩ : BufTy).Contents (Elt F)) : val_main_v56 (F := F) x1 = val_main_v6 (F := F) x1 := rfl

/-- The third run's source words are the first run's. -/
theorem v102_eq (x1 : (⟨S2x524288, .i32⟩ : BufTy).Contents (Elt F)) : val_main_v102 (F := F) x1 = val_main_v3 (F := F) x1 := rfl

/-- The third run's target words are the first run's. -/
theorem v105_eq (x1 : (⟨S2x524288, .i32⟩ : BufTy).Contents (Elt F)) : val_main_v105 (F := F) x1 = val_main_v6 (F := F) x1 := rfl

/-- The first run's edge weights are the symmetric normalization of its source and target words: degrees by
    add-scattering ones at the targets, the factor rsqrt(max(degree, 1e-12)) where the degree is positive and zero
    elsewhere, and per edge the product of the factors at its wrapped source and target. -/
theorem v31_eq (x1 : (⟨S2x524288, .i32⟩ : BufTy).Contents (Elt F)) :
    val_main_v31 (F := F) x1 = Lay.normOf (val_main_v3 (F := F) x1) (val_main_v6 (F := F) x1) := rfl

/-- The second run's edge weights are the same normalization of the second run's own words. -/
theorem v81_run (x1 : (⟨S2x524288, .i32⟩ : BufTy).Contents (Elt F)) :
    val_main_v81 (F := F) x1 = Lay.normOf (val_main_v53 (F := F) x1) (val_main_v56 (F := F) x1) := rfl

/-- So the second run's edge weights are the first run's. -/
theorem v81_eq (x1 : (⟨S2x524288, .i32⟩ : BufTy).Contents (Elt F)) : val_main_v81 (F := F) x1 = val_main_v31 (F := F) x1 := by
  rw [v81_run, v53_eq, v56_eq, v31_eq]

/-- The third run's edge weights are the same normalization of the third run's own words. -/
theorem v130_run (x1 : (⟨S2x524288, .i32⟩ : BufTy).Contents (Elt F)) :
    val_main_v130 (F := F) x1 = Lay.normOf (val_main_v102 (F := F) x1) (val_main_v105 (F := F) x1) := rfl

/-- So the third run's edge weights are the first run's. -/
theorem v130_eq (x1 : (⟨S2x524288, .i32⟩ : BufTy).Contents (Elt F)) : val_main_v130 (F := F) x1 = val_main_v31 (F := F) x1 := by
  rw [v130_run, v102_eq, v105_eq, v31_eq]

/-! ## The three runs' outputs, each one aggregation layer of the first run's tables -/

/-- The first run's output: the width-256 aggregation of x · W_enc with bias b_enc over the edge tables, then the
    rectifier (the maximum with zero repeated over the shape). -/
theorem v49_eq (x0 : (⟨S16384x512, .f32⟩ : BufTy).Contents (Elt F)) (x1 : (⟨S2x524288, .i32⟩ : BufTy).Contents (Elt F)) (x2 : (⟨S512x256, .f32⟩ : BufTy).Contents (Elt F)) (x3 : (⟨S256, .f32⟩ : BufTy).Contents (Elt F)) :
    val_main_v49 (F := F) x0 x1 x2 x3
      = maximumf (Lay.layer256 (val_main_v3 (F := F) x1) (val_main_v6 (F := F) x1) (val_main_v31 (F := F) x1)
          (val_main_v32 (F := F) x0 x2) x3)
        (broadcastInDim S16384x256 ![] bcast_S_S16384x256 (constant (F := F) S_ .f32 0x00000000#32)) := rfl

/-- The second run's output is the width-128 aggregation of its product with its bias over its own tables. -/
theorem v98_run (x0 : (⟨S16384x512, .f32⟩ : BufTy).Contents (Elt F)) (x1 : (⟨S2x524288, .i32⟩ : BufTy).Contents (Elt F)) (x2 : (⟨S512x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F)) :
    val_main_v98 (F := F) x0 x1 x2 x3 x4 x5
      = Lay.layer128 (val_main_v53 (F := F) x1) (val_main_v56 (F := F) x1) (val_main_v81 (F := F) x1)
          (val_main_v82 (F := F) x0 x1 x2 x3 x4) x5 := rfl

/-- The second run's output over the first run's tables. -/
theorem v98_eq (x0 : (⟨S16384x512, .f32⟩ : BufTy).Contents (Elt F)) (x1 : (⟨S2x524288, .i32⟩ : BufTy).Contents (Elt F)) (x2 : (⟨S512x256, .f32⟩ : BufTy).Contents (Elt F)) (x3 : (⟨S256, .f32⟩ : BufTy).Contents (Elt F)) (x4 : (⟨S256x128, .f32⟩ : BufTy).Contents (Elt F)) (x5 : (⟨S128, .f32⟩ : BufTy).Contents (Elt F)) :
    val_main_v98 (F := F) x0 x1 x2 x3 x4 x5
      = Lay.layer128 (val_main_v3 (F := F) x1) (val_main_v6 (F := F) x1) (val_main_v31 (F := F) x1)
          (val_main_v82 (F := F) x0 x1 x2 x3 x4) x5 := by
  rw [v98_run, v53_eq, v56_eq, v81_eq]

/-- The third run's output is the width-128 aggregation of its product with its bias over its own tables. -/
theorem v147_run (x0 : (⟨S16384x512, .f32⟩ : BufTy).Contents (Elt F)) (x1 : (⟨S2x524288, .i32⟩ : BufTy).Contents (Elt F)) (x2 : (⟨S512x256, .f32⟩ : BufTy).Contents (Elt F)) (x3 : (⟨S256, .f32⟩ : BufTy).Contents (Elt F)) (x6 : (⟨S256x128, .f32⟩ : BufTy).Contents (Elt F)) (x7 : (⟨S128, .f32⟩ : BufTy).Contents (Elt F)) :
    val_main_v147 (F := F) x0 x1 x2 x3 x6 x7
      = Lay.layer128 (val_main_v102 (F := F) x1) (val_main_v105 (F := F) x1) (val_main_v130 (F := F) x1)
          (val_main_v131 (F := F) x0 x1 x2 x3 x6) x7 := rfl

/-- The third run's output over the first run's tables. -/
theorem v147_eq (x0 : (⟨S16384x512, .f32⟩ : BufTy).Contents (Elt F)) (x1 : (⟨S2x524288, .i32⟩ : BufTy).Contents (Elt F)) (x2 : (⟨S512x256, .f32⟩ : BufTy).Contents (Elt F)) (x3 : (⟨S256, .f32⟩ : BufTy).Contents (Elt F)) (x6 : (⟨S256x128, .f32⟩ : BufTy).Contents (Elt F)) (x7 : (⟨S128, .f32⟩ : BufTy).Contents (Elt F)) :
    val_main_v147 (F := F) x0 x1 x2 x3 x6 x7
      = Lay.layer128 (val_main_v3 (F := F) x1) (val_main_v6 (F := F) x1) (val_main_v31 (F := F) x1)
          (val_main_v131 (F := F) x0 x1 x2 x3 x6) x7 := by
  rw [v147_run, v102_eq, v105_eq, v130_eq]

/-! ## The products, on the extended reals -/

/-- The host's plain product is the matrix product index by index. -/
theorem v32_eq (x0 : FVec Ideal S16384x512 .f32) (x2 : FVec Ideal S512x256 .f32) :
    val_main_v32 (F := Ideal) x0 x2 = Cert.Layers.mm x0 x2 := by
  unfold val_main_v32
  exact Cert.Layers.hostMm_eq dot_S16384x512_S512x256_S16384x256_1_0_0_1_n_n
    dot_S16384x512_S512x256_S16384x256_1_0_0_1_n_n_wf rfl x0 x2

/-- The second run's product is the matrix product of the first run's output with W1. -/
theorem v82_eq (x0 : (⟨S16384x512, .f32⟩ : BufTy).Contents (Elt Ideal)) (x1 : (⟨S2x524288, .i32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) :
    val_main_v82 (F := Ideal) x0 x1 x2 x3 x4 = Cert.Layers.mm (val_main_v49 (F := Ideal) x0 x1 x2 x3) x4 := by
  unfold val_main_v82
  exact Cert.Layers.hostMm_eq dot_S16384x256_S256x128_S16384x128_1_0_0_1_n_n
    dot_S16384x256_S256x128_S16384x128_1_0_0_1_n_n_wf rfl _ x4

/-- The third run's product is the matrix product of the first run's output with W2. -/
theorem v131_eq (x0 : (⟨S16384x512, .f32⟩ : BufTy).Contents (Elt Ideal)) (x1 : (⟨S2x524288, .i32⟩ : BufTy).Contents (Elt Ideal)) (x2 : (⟨S512x256, .f32⟩ : BufTy).Contents (Elt Ideal)) (x3 : (⟨S256, .f32⟩ : BufTy).Contents (Elt Ideal)) (x6 : (⟨S256x128, .f32⟩ : BufTy).Contents (Elt Ideal)) :
    val_main_v131 (F := Ideal) x0 x1 x2 x3 x6 = Cert.Layers.mm (val_main_v49 (F := Ideal) x0 x1 x2 x3) x6 := by
  unfold val_main_v131
  exact Cert.Layers.hostMm_eq dot_S16384x256_S256x128_S16384x128_1_0_0_1_n_n
    dot_S16384x256_S256x128_S16384x128_1_0_0_1_n_n_wf rfl _ x6

/-- The product of a matrix with its own transpose: entry (r, c) is the sum over k of mu(r,k)·mu(c,k); rounding the
    matrix to a narrower float format first is the identity on the extended reals. -/
theorem v149_eq (x0 : (⟨S16384x512, .f32⟩ : BufTy).Contents (Elt Ideal)) (x1 : (⟨S2x524288, .i32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (h : FTy.bf16.bits < FTy.f32.bits) :
    val_main_v149 (F := Ideal) x0 x1 x2 x3 x4 x5
      = fun i : S16384x16384.Idx => ∑ k : Fin 128,
          (truncf (F := Ideal) (s := S16384x128) .bf16 (val_main_v98 (F := Ideal) x0 x1 x2 x3 x4 x5) h) (ix2 (i 0) k)
            * (truncf (F := Ideal) (s := S16384x128) .bf16 (val_main_v98 (F := Ideal) x0 x1 x2 x3 x4 x5) h) (ix2 (i 1) k) := by
  funext i
  rw [val_main_v149_apply]
  refine Finset.sum_congr rfl fun k _ => ?_
  rw [val_main_v148_apply]
  generalize val_main_v98 (F := Ideal) x0 x1 x2 x3 x4 x5 = mu
  -- the left operand is read at (r, k); the transpose at (k, c) reads the matrix at (c, k)
  have hl : lidx_main_v149 i k = (ix2 (i 0) k : S16384x128.Idx) :=
    funext fun a => Fin.ext (by match a with | ⟨0, _⟩ => rfl | ⟨1, _⟩ => rfl)
  have hr : idx_main_v148 (ridx_main_v149 i k) = (ix2 (i 1) k : S16384x128.Idx) :=
    funext fun a => Fin.ext (by match a with | ⟨0, _⟩ => rfl | ⟨1, _⟩ => rfl)
  rw [hl, hr]
  rfl

end Cert.ReferenceIdeal.RefSide

end
-- ==== Proof.KValue.lean ====
/-
  The values of the idealized kernel program's second and third results, as the reference's own stage functions of
  the argument arrays.

  Walking the fold of the six segments from the launch memory: the first stretch leaves the edge tables and weights,
  which are the reference's (it recomputes the same tables in each of its three convolutions); the first region leaves
  the product x · W_enc, the host's plain product index by index; the second stretch's aggregation and rectifier are
  then the reference's first convolution, h; the second region leaves h · [W1 | W2]; the third stretch aggregates that
  at width 256 and slices: its left half is the reference's second convolution (mu) and its right half the third
  (logvar), because gathering, scaling, summing and adding a bias all act column by column and a product with two
  weight matrices side by side is, column by column, the product with one of them.
-/
import proofs.«171449_j66383014527469_2_alg».proof.Proof.Fold
import proofs.«171449_j66383014527469_2_alg».proof.Proof.RegionLinear
import proofs.«171449_j66383014527469_2_alg».proof.Proof.LayerSplit
import proofs.«171449_j66383014527469_2_alg».proof.Proof.RefSide

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v31 val_main_v32 val_main_v49 val_main_v82 val_main_v98 val_main_v131 val_main_v147)

variable (m : (ℓ : Loc nD τ sig) → Buf (Elt Ideal) ℓ) (ρ : Dev nD → PrngReg) (c : Dev nD)

/-! ## After the first stretch -/

theorem w1_arg0 : W1 m ρ c (Proc.devRef .tc main_arg0) = (m ((c : Thread nD τ).loc main_arg0)) := Fold.s0_arg0 (W0 m ρ c)
theorem w1_arg2 : W1 m ρ c (Proc.devRef .tc main_arg2) = (m ((c : Thread nD τ).loc main_arg2)) := Fold.s0_arg2 (W0 m ρ c)
theorem w1_arg3 : W1 m ρ c (Proc.devRef .tc main_arg3) = (m ((c : Thread nD τ).loc main_arg3)) := Fold.s0_arg3 (W0 m ρ c)
theorem w1_arg4 : W1 m ρ c (Proc.devRef .tc main_arg4) = (m ((c : Thread nD τ).loc main_arg4)) := Fold.s0_arg4 (W0 m ρ c)
theorem w1_arg5 : W1 m ρ c (Proc.devRef .tc main_arg5) = (m ((c : Thread nD τ).loc main_arg5)) := Fold.s0_arg5 (W0 m ρ c)
theorem w1_arg6 : W1 m ρ c (Proc.devRef .tc main_arg6) = (m ((c : Thread nD τ).loc main_arg6)) := Fold.s0_arg6 (W0 m ρ c)
theorem w1_arg7 : W1 m ρ c (Proc.devRef .tc main_arg7) = (m ((c : Thread nD τ).loc main_arg7)) := Fold.s0_arg7 (W0 m ρ c)

theorem w1_v3 : W1 m ρ c (Proc.devRef .tc main_call0_v3) = val_main_v3 (F := Ideal) (m ((c : Thread nD τ).loc main_arg1)) := Fold.s0_v3 (W0 m ρ c)
theorem w1_v6 : W1 m ρ c (Proc.devRef .tc main_call0_v6) = val_main_v6 (F := Ideal) (m ((c : Thread nD τ).loc main_arg1)) := Fold.s0_v6 (W0 m ρ c)
/-- The edge weights are the reference's: the normalization is one function whichever program's records spell it. -/
theorem w1_v31 : W1 m ρ c (Proc.devRef .tc main_call0_v31) = val_main_v31 (F := Ideal) (m ((c : Thread nD τ).loc main_arg1)) :=
  (Fold.s0_v31 (W0 m ρ c)).trans (by rw [Cert.Bridge.normOf_eq, ← Cert.ReferenceIdeal.RefSide.v31_eq])

/-! ## After the first region: the product x · W_enc -/

theorem w2_v32 : W2 m ρ c (Proc.devRef .tc main_call0_v32) = val_main_v32 (F := Ideal) (m ((c : Thread nD τ).loc main_arg0)) (m ((c : Thread nD τ).loc main_arg2)) := by
  refine (W2_arr m ρ c 2).trans ((RegionValue.region0_value (V1 m ρ) c).trans ?_)
  show Cert.Layers.mm (W1 m ρ c (Proc.devRef .tc main_arg0)) (W1 m ρ c (Proc.devRef .tc main_arg2)) = _
  rw [w1_arg0, w1_arg2, Cert.ReferenceIdeal.RefSide.v32_eq]

theorem w2_v3 : W2 m ρ c (Proc.devRef .tc main_call0_v3) = val_main_v3 (F := Ideal) (m ((c : Thread nD τ).loc main_arg1)) :=
  (W2_of_ne m ρ c main_call0_v3 (by decide)).trans (w1_v3 m ρ c)
theorem w2_v6 : W2 m ρ c (Proc.devRef .tc main_call0_v6) = val_main_v6 (F := Ideal) (m ((c : Thread nD τ).loc main_arg1)) :=
  (W2_of_ne m ρ c main_call0_v6 (by decide)).trans (w1_v6 m ρ c)
theorem w2_v31 : W2 m ρ c (Proc.devRef .tc main_call0_v31) = val_main_v31 (F := Ideal) (m ((c : Thread nD τ).loc main_arg1)) :=
  (W2_of_ne m ρ c main_call0_v31 (by decide)).trans (w1_v31 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)

/-! ## After the second stretch: the first convolution, and the second layer's weights side by side -/

/-- The rectified aggregation of the first product is the reference's first convolution. -/
theorem w3_v49 : W3 m ρ c (Proc.devRef .tc main_call0_v49) = val_main_v49 (F := Ideal) (m ((c : Thread nD τ).loc main_arg0)) (m ((c : Thread nD τ).loc main_arg1)) (m ((c : Thread nD τ).loc main_arg2)) (m ((c : Thread nD τ).loc main_arg3)) := by
  refine (Fold.s1_v49 (W2 m ρ c)).trans ?_
  rw [w2_v3, w2_v6, w2_v31, w2_v32, w2_arg3, Cert.Bridge.layer256_eq, Cert.ReferenceIdeal.RefSide.v49_eq]

theorem w3_v50 : W3 m ρ c (Proc.devRef .tc main_call0_v50)
    = concatenate S256x256 1 [⟨S256x128, (m ((c : Thread nD τ).loc main_arg4))⟩, ⟨S256x128, (m ((c : Thread nD τ).loc main_arg6))⟩] concatenates_S256x128_S256x128_S256x256_d1 := by
  refine (Fold.s1_v50 (W2 m ρ c)).trans ?_
  rw [w2_arg4, w2_arg6]

theorem w3_v51 : W3 m ρ c (Proc.devRef .tc main_call0_v51)
    = concatenate S256 0 [⟨S128, (m ((c : Thread nD τ).loc main_arg5))⟩, ⟨S128, (m ((c : Thread nD τ).loc main_arg7))⟩] concatenates_S128_S128_S256_d0 := by
  refine (Fold.s1_v51 (W2 m ρ c)).trans ?_
  rw [w2_arg5, w2_arg7]

theorem w3_v3 : W3 m ρ c (Proc.devRef .tc main_call0_v3) = val_main_v3 (F := Ideal) (m ((c : Thread nD τ).loc main_arg1)) :=
  (Fold.s1_v3 (W2 m ρ c)).trans (w2_v3 m ρ c)
theorem w3_v6 : W3 m ρ c (Proc.devRef .tc main_call0_v6) = val_main_v6 (F := Ideal) (m ((c : Thread nD τ).loc main_arg1)) :=
  (Fold.s1_v6 (W2 m ρ c)).trans (w2_v6 m ρ c)
theorem w3_v31 : W3 m ρ c (Proc.devRef .tc main_call0_v31) = val_main_v31 (F := Ideal) (m ((c : Thread nD τ).loc main_arg1)) :=
  (Fold.s1_v31 (W2 m ρ c)).trans (w2_v31 m ρ c)

/-! ## After the second region: the product h · [W1 | W2] -/

theorem w4_v52 : W4 m ρ c (Proc.devRef .tc main_call0_v52)
    = Cert.Layers.mm (val_main_v49 (F := Ideal) (m ((c : Thread nD τ).loc main_arg0)) (m ((c : Thread nD τ).loc main_arg1)) (m ((c : Thread nD τ).loc main_arg2)) (m ((c : Thread nD τ).loc main_arg3)))
        (concatenate S256x256 1 [⟨S256x128, (m ((c : Thread nD τ).loc main_arg4))⟩, ⟨S256x128, (m ((c : Thread nD τ).loc main_arg6))⟩] concatenates_S256x128_S256x128_S256x256_d1) := by
  refine (W4_arr m ρ c 2).trans ((RegionValue.region1_value (V3 m ρ) c).trans ?_)
  show Cert.Layers.mm (W3 m ρ c (Proc.devRef .tc main_call0_v49)) (W3 m ρ c (Proc.devRef .tc main_call0_v50)) = _
  rw [w3_v49, w3_v50]

theorem w4_v3 : W4 m ρ c (Proc.devRef .tc main_call0_v3) = val_main_v3 (F := Ideal) (m ((c : Thread nD τ).loc main_arg1)) :=
  (W4_of_ne m ρ c main_call0_v3 (by decide)).trans (w3_v3 m ρ c)
theorem w4_v6 : W4 m ρ c (Proc.devRef .tc main_call0_v6) = val_main_v6 (F := Ideal) (m ((c : Thread nD τ).loc main_arg1)) :=
  (W4_of_ne m ρ c main_call0_v6 (by decide)).trans (w3_v6 m ρ c)
theorem w4_v31 : W4 m ρ c (Proc.devRef .tc main_call0_v31) = val_main_v31 (F := Ideal) (m ((c : Thread nD τ).loc main_arg1)) :=
  (W4_of_ne m ρ c main_call0_v31 (by decide)).trans (w3_v31 m ρ c)
theorem w4_v51 : W4 m ρ c (Proc.devRef .tc main_call0_v51)
    = concatenate S256 0 [⟨S128, (m ((c : Thread nD τ).loc main_arg5))⟩, ⟨S128, (m ((c : Thread nD τ).loc main_arg7))⟩] concatenates_S128_S128_S256_d0 :=
  (W4_of_ne m ρ c main_call0_v51 (by decide)).trans (w3_v51 m ρ c)

/-! ## After the third stretch: the two halves of the wide layer are the reference's two narrow layers -/

/-- The left half of the wide aggregation is the reference's second convolution. -/
theorem left_half :
    extractStridedSlice S16384x128 ![0, 0]
        (Cert.KernelIdeal.Lay.layer256 (F := Ideal) (W4 m ρ c (Proc.devRef .tc main_call0_v3)) (W4 m ρ c (Proc.devRef .tc main_call0_v6))
          (W4 m ρ c (Proc.devRef .tc main_call0_v31)) (W4 m ρ c (Proc.devRef .tc main_call0_v52)) (W4 m ρ c (Proc.devRef .tc main_call0_v51)))
        slices_S16384x256_S16384x128_0_0
      = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [w4_v3, w4_v6, w4_v31, w4_v52, w4_v51, Cert.ReferenceIdeal.RefSide.v98_eq]
  exact Cert.Bridge.layer_left _ _ _ _ _ _ _ (fun r q => Cert.Bridge.mm_cat_left _ _ _ r q)

/-- The right half is the reference's third convolution. -/
theorem right_half :
    extractStridedSlice S16384x128 ![0, 128]
        (Cert.KernelIdeal.Lay.layer256 (F := Ideal) (W4 m ρ c (Proc.devRef .tc main_call0_v3)) (W4 m ρ c (Proc.devRef .tc main_call0_v6))
          (W4 m ρ c (Proc.devRef .tc main_call0_v31)) (W4 m ρ c (Proc.devRef .tc main_call0_v52)) (W4 m ρ c (Proc.devRef .tc main_call0_v51)))
        slices_S16384x256_S16384x128_0_128
      = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  rw [w4_v3, w4_v6, w4_v31, w4_v52, w4_v51, Cert.ReferenceIdeal.RefSide.v147_eq]
  exact Cert.Bridge.layer_right _ _ _ _ _ _ _ (fun r q => Cert.Bridge.mm_cat_right _ _ _ r q)

theorem w5_v0_1 : W5 m ρ c (Proc.devRef .tc main_v0_1) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Fold.s2_v0_1 (W4 m ρ c)).trans (left_half m ρ c)
theorem w5_v0_2 : W5 m ρ c (Proc.devRef .tc main_v0_2) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (Fold.s2_v0_2 (W4 m ρ c)).trans (right_half m ρ c)
/-- What the last region reads: the second convolution rounded to the narrower format. -/
theorem w5_v71 : W5 m ρ c (Proc.devRef .tc main_call0_v71)
    = truncf (F := Ideal) (s := S16384x128) .bf16 (val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32 :=
  (Fold.s2_v71 (W4 m ρ c)).trans (by rw [left_half m ρ c])

/-! ## After the last region -/

theorem w6_v0_1 : W6 m ρ c (Proc.devRef .tc main_v0_1) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_of_ne m ρ c main_v0_1 (by decide)).trans (w5_v0_1 m ρ c)
theorem w6_v0_2 : W6 m ρ c (Proc.devRef .tc main_v0_2) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) :=
  (W6_of_ne m ρ c main_v0_2 (by decide)).trans (w5_v0_2 m ρ c)

end Cert.KernelIdeal.KValue

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.RegionOuter.lean ====
/-
  The value of the outer-product region. The region computes Adj = Z·Zᵀ for the 16384 × 128 matrix Z it finds
  resident: the 16384 × 16384 output is cut into 8 × 16 tiles of 2048 × 1024 entries, and the grid point (i₀, i₁)
  writes the tile at position (i₀, i₁) — the product of the band of 2048 rows of Z starting at row 2048·i₀ against the
  band of 1024 rows of Z starting at row 1024·i₁, each entry the 128-term sum of products taken into a zero
  accumulator. Over the extended reals entry (p, q) of that tile is Σₖ Z(2048·i₀ + p, k)·Z(1024·i₁ + q, k), which is
  entry (2048·i₀ + p, 1024·i₁ + q) of Z·Zᵀ; the 128 tiles cover the array (entry (r, c) lies in the tile at position
  (r / 2048, c / 1024)) and every grid point writes its tile back, so after the last point the array is Z·Zᵀ.
-/
import proofs.«171449_j66383014527469_2_alg».proof.Proof.Gen.KernelIdeal.Frame
import proofs.«171449_j66383014527469_2_alg».proof.Proof.LibMatmulRows
import Idealize.ShloMosaic.Lib.Pipeline.Value
import Idealize.ShloMosaic.Lib.ValueIdx
import Idealize.ShloMosaic.PureOps.Ideal.Laws
noncomputable section
namespace Cert.KernelIdeal.RegionValue
open Idealize.ShloMosaic Idealize.ShloMosaic.TcCoe Idealize.ShloMosaic.ValueIdx Idealize.SL.Sem Cert.KernelIdeal Cert.KernelIdeal.Gen

/-- Rows of x against rows of y: entry (r, c) is the K-term sum of x(r,k)·y(c,k). -/
def mmT {M K N : Nat} (x : (⟨2, ![M, K]⟩ : Shape).Idx → EReal) (y : (⟨2, ![N, K]⟩ : Shape).Idx → EReal) :
    (⟨2, ![M, N]⟩ : Shape).Idx → EReal := fun i => ∑ k : Fin K, x (ix2 (i 0) k) * y (ix2 (i 1) k)

/-- The offset pair (0, 0), however spelt, is the zero offset. -/
theorem zero_offsets : (![0, 0] : Fin 2 → Nat) = fun _ => 0 := funext fun a => by fin_cases a <;> rfl

/-- What one grid point leaves in the output tile: the tile product of the two row bands the body loads from the
    resident matrix, the first band starting at row 2048·i₀ (2048 rows), the second at row 1024·i₁ (1024 rows). -/
theorem tile_eq_payload {F : FTy → Type} [FloatOps F] (c : Dev nD) (i : grid2.Coords)
    (arg2 : Memref sig .tc .vmem S16384x128 .bf16) (harg2 : arg2.IsWhole)
    (arg3 : Memref sig .tc .vmem S2048x1024 .f32) (harg3 : arg3.IsWhole) (x0 : Vec F S16384x128 .bf16) :
    out2_A_1 (F := F) c i arg2 harg2 arg3 harg3 x0
      = k2_pay1 (View.ld x0 (Rect.unit (s := S16384x128) (k2_off1 i) S2048x128.size (k2_off1_inb i)))
          (View.ld x0 (Rect.unit (s := S16384x128) (k2_off2 i) S1024x128.size (k2_off2_inb i))) := by
  unfold out2_A_1
  rw [View.read_writes_eq_canon _ _ _ (cover2_A_1 c i arg2 harg2 arg3 harg3 x0)]
  unfold kernelRun2_A
  dsimp only
  rw [View.canon_unit_zero zero_offsets]
  simp only [View.readAt_eq_ld, harg2.read_unread]

/-- Entry (p, q) of the tile product of a 2048-row band a and a 1024-row band b, over the extended reals: the
    128-term sum of a(p,k)·b(q,k) — row p of a against row q of b, taken into a zero accumulator. -/
theorem payload_apply (a : Vec Ideal S2048x128 .bf16) (b : Vec Ideal S1024x128 .bf16) (p : Fin 2048) (q : Fin 1024) :
    k2_pay1 (F := Ideal) a b (ix2 p q) = ∑ k : Fin 128, a (ix2 p k) * b (ix2 q k) := by
  unfold k2_pay1
  rw [shapeCast_self, shapeCast_self]
  exact Cert.LibMatmulRows.matmul_zero_apply dot_S2048x128_S1024x128_S2048x1024_1_1_0_0_n_n_wf none a b p q

/-- The same entry with the two bands cut out of one 16384-row matrix X at a grid point (i₀, i₁): row 2048·i₀ + p
    of X against row 1024·i₁ + q of X. -/
theorem band_payload_apply (X : Vec Ideal S16384x128 .bf16) (i : grid2.Coords) (p : Fin 2048) (q : Fin 1024)
    (r s : Fin 16384) (hr : r.val = 2048 * (i 0).val + p.val) (hs : s.val = 1024 * (i 1).val + q.val) :
    k2_pay1 (F := Ideal) (View.ld X (Rect.unit (s := S16384x128) (k2_off1 i) S2048x128.size (k2_off1_inb i)))
        (View.ld X (Rect.unit (s := S16384x128) (k2_off2 i) S1024x128.size (k2_off2_inb i))) (ix2 p q)
      = ∑ k : Fin 128, X (ix2 r k) * X (ix2 s k) := by
  refine (payload_apply _ _ p q).trans (Finset.sum_congr rfl fun k _ => ?_)
  have e1 : (Rect.unit (s := S16384x128) (k2_off1 i) S2048x128.size (k2_off1_inb i)).idx (ix2 p k) = ix2 r k := by
    funext a
    refine Fin.ext ?_
    match a with
    | ⟨0, _⟩ =>
      show (k2_off1 i) 0 + 1 * p.val = r.val
      rw [k2_off1_eq i, hr]
      show 2048 * (i 0).val + 1 * p.val = _
      omega
    | ⟨1, _⟩ =>
      show (k2_off1 i) 1 + 1 * k.val = k.val
      rw [k2_off1_eq i]
      show 0 + 1 * k.val = _
      omega
  have e2 : (Rect.unit (s := S16384x128) (k2_off2 i) S1024x128.size (k2_off2_inb i)).idx (ix2 q k) = ix2 s k := by
    funext a
    refine Fin.ext ?_
    match a with
    | ⟨0, _⟩ =>
      show (k2_off2 i) 0 + 1 * q.val = s.val
      rw [k2_off2_eq i, hs]
      show 1024 * (i 1).val + 1 * q.val = _
      omega
    | ⟨1, _⟩ =>
      show (k2_off2 i) 1 + 1 * k.val = k.val
      rw [k2_off2_eq i]
      show 0 + 1 * k.val = _
      omega
  show X (_) * X (_) = _
  rw [e1, e2]

/-- The block index maps over the 8 × 16 grid: the resident operand's block never moves, and the output tile's block
    index is the grid point's own coordinate pair. -/
theorem index_facts : ∀ t : Fin cfg2.N, win2_0.index t (0 : Fin 2) = 0 ∧ win2_0.index t (1 : Fin 2) = 0
    ∧ win2_1.index t (0 : Fin 2) = (grid2.coords t 0).val ∧ win2_1.index t (1 : Fin 2) = (grid2.coords t 1).val
    ∧ (grid2.coords t 0).val ≤ 7 ∧ (grid2.coords t 1).val ≤ 15 :=
  (by decide +kernel : ∀ t : Fin grid2.N, _)

/-- Every tile position (q₀, q₁) of the 8 × 16 tiling is some grid point's. -/
theorem index_onto : ∀ (q0 : Fin 8) (q1 : Fin 16), ∃ t : Fin cfg2.N, win2_1.index t = ![q0.val, q1.val] :=
  (by decide +kernel : ∀ (q0 : Fin 8) (q1 : Fin 16), ∃ t : Fin grid2.N, win2_1.index t = ![q0.val, q1.val])

/-- A tile entry is an entry of Z·Zᵀ: if the staged matrix X reads Z everywhere and u is the array position of entry
    (p, q) of the tile at grid point (i₀, i₁) — row 2048·i₀ + p, column 1024·i₁ + q — then the tile product's entry
    (p, q) is Σₖ Z(u₀,k)·Z(u₁,k). -/
theorem tile_entry (Z : S16384x128.Idx → EReal) (X : Vec Ideal S16384x128 .bf16) (hX : ∀ y, X y = Z y)
    (i : grid2.Coords) (p : Fin 2048) (q : Fin 1024) (u : S16384x16384.Idx)
    (h0 : (u 0).val = 2048 * (i 0).val + p.val) (h1 : (u 1).val = 1024 * (i 1).val + q.val) :
    k2_pay1 (F := Ideal) (View.ld X (Rect.unit (s := S16384x128) (k2_off1 i) S2048x128.size (k2_off1_inb i)))
        (View.ld X (Rect.unit (s := S16384x128) (k2_off2 i) S1024x128.size (k2_off2_inb i))) (ix2 p q)
      = mmT Z Z u := by
  refine (band_payload_apply X i p q (u 0) (u 1) h0 h1).trans ?_
  show _ = ∑ k : Fin 128, Z (ix2 (u 0) k) * Z (ix2 (u 1) k)
  refine Finset.sum_congr rfl fun k _ => ?_
  rw [hX, hX]

section
variable (V : (c : Dev nD) → (b : Ref sig .tc) → Buf (Elt Ideal) ((c : Thread nD τ).loc b))

/-- The resident operand's block at any grid point is the whole matrix: it reads the array as the region found it. -/
theorem resident_block (c : Dev nD) (t : Fin cfg2.N) (y : S16384x128.Idx) :
    iblk2 (F := Ideal) V c 0 t y = V c main_call0_v71 y := by
  obtain ⟨e0, e1, -⟩ := index_facts t
  unfold iblk2
  rw [View.read_apply]
  show V c main_call0_v71 (((cfg2.win 0).blk t).view.emb y) = V c main_call0_v71 y
  refine congrArg (V c main_call0_v71) (funext fun a => Fin.ext ?_)
  match a with
  | ⟨0, _⟩ => show win2_0.index t (0 : Fin 2) * 16384 + 1 * (y 0).val = (y 0).val; rw [e0]; omega
  | ⟨1, _⟩ => show win2_0.index t (1 : Fin 2) * 128 + 1 * (y 1).val = (y 1).val; rw [e1]; omega

/-- What grid point t writes back is its 2048 × 1024 tile of Z·Zᵀ, Z the resident matrix as the region found it:
    entry (p, q) of the tile sits at row 2048·t₀ + p, column 1024·t₁ + q of the array. -/
theorem flushed_eq (c : Dev nD) (t : Fin cfg2.N) :
    (dat2 (F := Ideal) V c).flushed 1 t
      = ((cfg2.win 1).blk t).view.read (Elt Ideal) (mmT (V c main_call0_v71) (V c main_call0_v71)) := by
  show (cfg2.win 1).cut (grid2.coords t) ((dat2 V c).after 1 t) = _
  rw [after2_1]
  unfold outsAt2
  rw [tile_eq_payload (F := Ideal) c (grid2.coords t) (ms2_0 t) (hs2_0 t) (ms2_1 t) (hs2_1 t) (iblk2 V c 0 t)]
  obtain ⟨-, -, e2, e3, -⟩ := index_facts t
  funext j
  obtain ⟨p, q, rfl⟩ : ∃ (p : Fin 2048) (q : Fin 1024), j = ix2 p q := ⟨j 0, j 1, eq_ix2 j⟩
  refine tile_entry (V c main_call0_v71) (iblk2 V c 0 t) (resident_block V c t) (grid2.coords t) p q
    (((cfg2.win 1).blk t).view.emb (ix2 p q)) ?_ ?_
  · show win2_1.index t (0 : Fin 2) * 2048 + 1 * p.val = 2048 * (grid2.coords t 0).val + p.val
    rw [e2]; omega
  · show win2_1.index t (1 : Fin 2) * 1024 + 1 * q.val = 1024 * (grid2.coords t 1).val + q.val
    rw [e3]; omega

/-- An entry of the 16384 × 16384 array lies in grid point t's tile iff each coordinate is in the tile's range. -/
theorem mem_tile (t : Fin cfg2.N) (i : S16384x16384.Idx) :
    i ∈ ((cfg2.win 1).blk t).view.set ↔ ∀ a : Fin 2, win2_1.index t a * S2048x1024.size a ≤ (i a).val
      ∧ (i a).val < win2_1.index t a * S2048x1024.size a + S2048x1024.size a := by
  show i ∈ ((View.whole main_v0_0).slice (win2_1.rect t)).set ↔ _
  rw [View.set_slice_whole, Rect.mem_set_unit]
  exact Iff.rfl

/-- The 128 tiles cover the array: entry (r, c) lies in the tile at position (r / 2048, c / 1024), and every grid
    point writes its tile back. -/
theorem tiles_cover (i : S16384x16384.Idx) :
    ∃ t : Fin cfg2.N, (cfg2.win 1).flush t = true ∧ i ∈ ((cfg2.win 1).blk t).view.set := by
  have hi0 : (i 0).val < 16384 := (i 0).isLt
  have hi1 : (i 1).val < 16384 := (i 1).isLt
  obtain ⟨t, ht⟩ := index_onto ⟨(i 0).val / 2048, by omega⟩ ⟨(i 1).val / 1024, by omega⟩
  have q0 : win2_1.index t (0 : Fin 2) = (i 0).val / 2048 := congrFun ht 0
  have q1 : win2_1.index t (1 : Fin 2) = (i 1).val / 1024 := congrFun ht 1
  refine ⟨t, flush2_1 t, ?_⟩
  rw [mem_tile]
  intro a
  match a with
  | ⟨0, _⟩ => show win2_1.index t (0 : Fin 2) * 2048 ≤ (i 0).val ∧ (i 0).val < win2_1.index t (0 : Fin 2) * 2048 + 2048; omega
  | ⟨1, _⟩ => show win2_1.index t (1 : Fin 2) * 1024 ≤ (i 1).val ∧ (i 1).val < win2_1.index t (1 : Fin 2) * 1024 + 1024; omega

/-- After all 128 grid points the output array is Z·Zᵀ of the resident matrix Z as the region found it:
    Adj(r, c) = Σₖ Z(r,k)·Z(c,k). -/
theorem region2_value (c : Dev nD) :
    (dat2 (F := Ideal) V c).arrAt 1 cfg2.N = mmT (V c main_call0_v71) (V c main_call0_v71) :=
  (dat2 V c).arrAt_eq_of_cover 1 _ (fun t _ => flushed_eq V c t) tiles_cover

end

end Cert.KernelIdeal.RegionValue
end
-- ==== Proof.KRun.lean ====
/-
  The idealized kernel program's run with its three results NAMED.

  @main is six segments: a stretch of host operations, a tiled product, a second stretch, a second tiled product, a third
  stretch, and the tiled outer product. The contents of every unscoped buffer after each segment are a fold from the
  launch memory: a stretch applies its operations in order, a region leaves its arrays at what its write-backs left
  and every other buffer as it found it. The frame certificate ends by reading the argument arrays back through that fold;
  here the same run is read at the three result buffers too, so that the value of each result is the fold's value there.
-/
import proofs.«171449_j66383014527469_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each of the three result buffers at the value
    the fold of the six segments gives it (`W6`: the buffer contents after the last region) and the argument arrays as
    launched. -/
theorem run_vals : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0_0 (by decide)),
       h c _ (mem_uc main_v0_1 (by decide)),
       h c _ (mem_uc main_v0_2 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.KOuter.lean ====
/-
  The value of the idealized kernel program's first result, and its run with all three results as the reference's
  stage functions of the argument arrays.

  The last region forms, tile by tile, the product of the resident matrix with its own transpose; the resident matrix
  is the second convolution (mu) rounded to the narrower float format, which on the extended reals changes nothing.
  The reference transposes mu and takes the host's plain product: entry (r, c) is in both the sum over k of
  mu(r,k)·mu(c,k).
-/
import proofs.«171449_j66383014527469_2_alg».proof.Proof.KValue
import proofs.«171449_j66383014527469_2_alg».proof.Proof.RegionOuter
import proofs.«171449_j66383014527469_2_alg».proof.Proof.KRun

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.ReadP (val_main_v98 val_main_v147 val_main_v149)

variable (m : (ℓ : Loc nD τ sig) → Buf (Elt Ideal) ℓ) (ρ : Dev nD → PrngReg) (c : Dev nD)

/-- The outer product of the rounded second convolution with itself is the reference's product of mu with its transpose. -/
theorem w6_v0_0 : W6 m ρ c (Proc.devRef .tc main_v0_0)
    = val_main_v149 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 1).trans ((RegionValue.region2_value (V5 m ρ) c).trans ?_)
  show RegionValue.mmT (W5 m ρ c (Proc.devRef .tc main_call0_v71)) (W5 m ρ c (Proc.devRef .tc main_call0_v71)) = _
  rw [w5_v71, Cert.ReferenceIdeal.RefSide.v149_eq _ _ _ _ _ _ bitsLt_bf16_f32]
  rfl

/-- Every weakly fair execution of the idealized kernel program terminates, nothing faulting, with its three results at the
    reference's stage functions of the argument arrays, and the argument arrays as launched. -/
theorem run : θ_run defs (onTc (τ := τ) (main (F := Ideal))) ⟨m, fun _ => 0, ρ⟩ (fun r => ∀ c : Dev nD,
      r.2.mem ((c.tc : Thread nD τ).loc main_v0_0) = val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_1) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_2) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (w6_v0_0 m ρ c), (h c).2.1.trans (w6_v0_1 m ρ c),
      (h c).2.2.1.trans (w6_v0_2 m ρ c), (h c).2.2.2⟩)
    (Cert.KernelIdeal.KRun.run_vals m ρ)

end Cert.KernelIdeal.KValue

end
-- ==== Proof.lean ====
/-
  Equivalence over the extended reals of a two-layer graph-convolutional encoder with a dense reconstruction,
  Adj = mu · muᵀ, against its plain reference.

  Both programs compute the symmetric normalization of the graph with self-loops (node degrees by an add-scatter of ones,
  factors rsqrt(max(deg, 1e-12)) where the degree is positive, an edge's weight the product of its two ends' factors) and
  aggregate a node feature matrix H as  out(p, q) = Σ_{e : target e = p} H(source e, q) · weight e + b q.
  The kernel program computes the edge tables once and the three dense products in tiled matrix-unit regions (operands
  rounded to a narrower float format, the identity on the extended reals): x · W_enc; h · [W1 | W2] with the two second-layer
  weight matrices side by side, aggregated once at width 256 and sliced into mu and logvar; and mu · muᵀ tile by tile from a
  resident copy of mu. The reference recomputes the tables in each of its three convolutions, multiplies by W1 and W2
  separately, and takes the host's product of mu with its transpose. The laws joining them: a tiled product is the plain
  product entry by entry; gathering, scaling, add-scattering and adding a bias act column by column, and a product with two
  matrices side by side is, column by column, the product with one of them; a product with a transpose contracts the
  second axes. Only commutativity and associativity of addition are used, so finiteness of the inputs is never needed.

  The three frames are the generated frame certificates (the reference's is its run with the results dropped); the
  idealization rewrote nothing, so preservation is trivial.
-/
import proofs.«171449_j66383014527469_2_alg».proof.Defs
import proofs.«171449_j66383014527469_2_alg».proof.Proof.Gen.Kernel
import proofs.«171449_j66383014527469_2_alg».proof.Proof.Gen.Kernel.Skeleton
import proofs.«171449_j66383014527469_2_alg».proof.Proof.Gen.Kernel.Launch
import proofs.«171449_j66383014527469_2_alg».proof.Proof.Gen.Kernel.Points
import proofs.«171449_j66383014527469_2_alg».proof.Proof.Gen.Kernel.Frame
import proofs.«171449_j66383014527469_2_alg».proof.Proof.Gen.KernelIdeal
import proofs.«171449_j66383014527469_2_alg».proof.Proof.Gen.KernelIdeal.Skeleton
import proofs.«171449_j66383014527469_2_alg».proof.Proof.Gen.KernelIdeal.Launch
import proofs.«171449_j66383014527469_2_alg».proof.Proof.Gen.KernelIdeal.Points
import proofs.«171449_j66383014527469_2_alg».proof.Proof.Gen.KernelIdeal.Frame
import proofs.«171449_j66383014527469_2_alg».proof.Proof.Gen.ReferenceIdeal
import proofs.«171449_j66383014527469_2_alg».proof.Proof.Gen.Pre_finite_inputs
import proofs.«171449_j66383014527469_2_alg».proof.Proof.RefRun
import proofs.«171449_j66383014527469_2_alg».proof.Proof.RefRead
import proofs.«171449_j66383014527469_2_alg».proof.Proof.KOuter
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- From memories agreeing on the arguments both idealized programs end with the same three results: the reference's
    stage functions of the argument arrays. -/
theorem algebraic : Cert.algebraic_KernelIdeal_ReferenceIdeal := by
  intro m ρ m' ρ' _ hagree
  refine ⟨fun c => Cert.ReferenceIdeal.ReadP.val_main_v149 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ?_) (Cert.ReferenceIdeal.ValueP.run (F := Ideal) m' ρ')
  obtain ⟨e0, e1, e2, e3, e4, e5, e6, e7⟩ := hagree c
  refine ⟨?_, ?_, ?_, (h c).2.2.2⟩
  · rw [(h c).1, Cert.ReferenceIdeal.ReadP.val_main_v149_eq, e0, e1, e2, e3, e4, e5]
  · rw [(h c).2.1, Cert.ReferenceIdeal.ReadP.val_main_v98_eq, e0, e1, e2, e3, e4, e5]
  · rw [(h c).2.2.1, Cert.ReferenceIdeal.ReadP.val_main_v147_eq, e0, e1, e2, e3, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
